-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  IdealRules.sign_bit.Statement Cert.KernelIdeal.S1024x1024 .f32
  ∧ IdealRules.sign_bit.Statement Cert.KernelIdeal.S1024x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x784 : Shape := ⟨2, ![16384, 784]⟩
abbrev S1024x784 : Shape := ⟨2, ![1024, 784]⟩
abbrev S1024 : Shape := ⟨1, ![1024]⟩
abbrev S1024x1024 : Shape := ⟨2, ![1024, 1024]⟩
abbrev S10x1024 : Shape := ⟨2, ![10, 1024]⟩
abbrev S10 : Shape := ⟨1, ![10]⟩
abbrev S_ : Shape := ⟨0, ![]⟩

class Facts : Prop where
  bcast_S_S16384x784 : S_.BroadcastsInDim S16384x784 (![] : Fin 0 → Fin S16384x784.rank)
  reducesTo_S16384x784_S_d0_1 : S16384x784.ReducesTo [0, 1] S_
  h_S_ : 0 < S_.numel
  bcast_S_S1024x784 : S_.BroadcastsInDim S1024x784 (![] : Fin 0 → Fin S1024x784.rank)
  reducesTo_S1024x784_S_d0_1 : S1024x784.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S10x1024 : S_.BroadcastsInDim S10x1024 (![] : Fin 0 → Fin S10x1024.rank)
  reducesTo_S10x1024_S_d0_1 : S10x1024.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_arg12 : FVec F S1024 .f32) (main_arg16 : FVec F S1024 .f32) (main_arg20 : FVec F S1024 .f32) (main_v98 : IVec S_ 1) (main_v101 : IVec S1024 1) (main_c_39 : IVec S_ 1) : IVec S_ 1 :=
  let main_v102 : IVec S_ 1 := (fun x v => Host.reduce IntOp.andi x v reducesTo_S1024_S_d0 h_S_) main_v101 main_c_39
  let main_v103 : IVec S_ 1 := andi main_v98 main_v102
  let main_cst_40 : FVec F S_ .f32 := constant S_ .f32 0x00000000#32
  let main_v104 : FVec F S1024 .f32 := broadcastInDim S1024 ![] bcast_S_S1024 main_cst_40
  let main_v105 : IVec S1024 1 := cmpf .oge main_arg12 main_v104
  let main_c_41 : IVec S_ 1 := constantI S_ 1 1#1
  let main_v106 : IVec S_ 1 := (fun x v => Host.reduce IntOp.andi x v reducesTo_S1024_S_d0 h_S_) main_v105 main_c_41
  let main_v107 : IVec S_ 1 := andi main_v103 main_v106
  let main_cst_42 : FVec F S_ .f32 := constant S_ .f32 0x00000000#32
  let main_v108 : FVec F S1024 .f32 := broadcastInDim S1024 ![] bcast_S_S1024 main_cst_42
  let main_v109 : IVec S1024 1 := cmpf .oge main_arg16 main_v108
  let main_c_43 : IVec S_ 1 := constantI S_ 1 1#1
  let main_v110 : IVec S_ 1 := (fun x v => Host.reduce IntOp.andi x v reducesTo_S1024_S_d0 h_S_) main_v109 main_c_43
  let main_v111 : IVec S_ 1 := andi main_v107 main_v110
  let main_cst_44 : FVec F S_ .f32 := constant S_ .f32 0x00000000#32
  let main_v112 : FVec F S1024 .f32 := broadcastInDim S1024 ![] bcast_S_S1024 main_cst_44
  let main_v113 : IVec S1024 1 := cmpf .oge main_arg20 main_v112
  let main_c_45 : IVec S_ 1 := constantI S_ 1 1#1
  let main_v114 : IVec S_ 1 := (fun x v => Host.reduce IntOp.andi x v reducesTo_S1024_S_d0 h_S_) main_v113 main_c_45
  let main_v115 : IVec S_ 1 := andi main_v111 main_v114
  main_v115

def fn_part5 {F : FTy → Type} [FloatOps F] (main_arg12 : FVec F S1024 .f32) (main_arg16 : FVec F S1024 .f32) (main_arg18 : FVec F S1024 .f32) (main_arg19 : FVec F S1024 .f32) (main_arg20 : FVec F S1024 .f32) (main_v83 : IVec S_ 1) (main_v84 : FVec F S1024 .f32) (main_cst_32 : FVec F S_ .f32) : IVec S_ 1 :=
  let main_v85 : FVec F S1024 .f32 := broadcastInDim S1024 ![] bcast_S_S1024 main_cst_32
  let main_v86 : IVec S1024 1 := cmpf .olt main_v84 main_v85
  let main_c_33 : IVec S_ 1 := constantI S_ 1 1#1
  let main_v87 : IVec S_ 1 := (fun x v => Host.reduce IntOp.andi x v reducesTo_S1024_S_d0 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S1024 .f32 := Host.absf main_arg19
  let main_cst_36 : FVec F S_ .f32 := constant S_ .f32 0x7F800000#32
  let main_v95 : FVec F S1024 .f32 := broadcastInDim S1024 ![] bcast_S_S1024 main_cst_36
  let main_v96 : IVec S1024 1 := cmpf .olt main_v94 main_v95
  let main_c_37 : IVec S_ 1 := constantI S_ 1 1#1
  let main_v97 : IVec S_ 1 := (fun x v => Host.reduce IntOp.andi x v reducesTo_S1024_S_d0 h_S_) main_v96 main_c_37
  let main_v98 : IVec S_ 1 := andi main_v93 main_v97
  let main_v99 : FVec F S1024 .f32 := Host.absf main_arg20
  let main_cst_38 : FVec F S_ .f32 := constant S_ .f32 0x7F800000#32
  let main_v100 : FVec F S1024 .f32 := broadcastInDim S1024 ![] bcast_S_S1024 main_cst_38
  let main_v101 : IVec S1024 1 := cmpf .olt main_v99 main_v100
  let main_c_39 : IVec S_ 1 := constantI S_ 1 1#1
  fn_part6 (F := F) main_arg12 main_arg16 main_arg20 main_v98 main_v101 main_c_39

def fn_part4 {F : FTy → Type} [FloatOps F] (main_arg12 : FVec F S1024 .f32) (main_arg14 : FVec F S1024 .f32) (main_arg15 : FVec F S1024 .f32) (main_arg16 : FVec F S1024 .f32) (main_arg17 : FVec F S1024 .f32) (main_arg18 : FVec F S1024 .f32) (main_arg19 : FVec F S1024 .f32) (main_arg20 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024 .f32 := Host.absf main_arg17
  let main_cst_32 : FVec F S_ .f32 := constant S_ .f32 0x7F800000#32
  fn_part5 (F := F) main_arg12 main_arg16 main_arg18 main_arg19 main_arg20 main_v83 main_v84 main_cst_32

def fn_part3 {F : FTy → Type} [FloatOps F] (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_arg18 : FVec F S1024 .f32) (main_arg19 : FVec F S1024 .f32) (main_arg20 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg12 main_arg14 main_arg15 main_arg16 main_arg17 main_arg18 main_arg19 main_arg20 main_v63 main_v67

def fn_part2 {F : FTy → Type} [FloatOps F] (main_arg7 : FVec F S10x1024 .f32) (main_arg8 : FVec F S10 .f32) (main_arg9 : FVec F S1024 .f32) (main_arg10 : FVec F S1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_arg18 : FVec F S1024 .f32) (main_arg19 : FVec F S1024 .f32) (main_arg20 : FVec F S1024 .f32) (main_v33 : IVec S_ 1) : IVec S_ 1 :=
  let main_v34 : FVec F S10x1024 .f32 := Host.absf main_arg7
  let main_cst_12 : FVec F S_ .f32 := constant S_ .f32 0x7F800000#32
  let main_v35 : FVec F S10x1024 .f32 := broadcastInDim S10x1024 ![] bcast_S_S10x1024 main_cst_12
  let main_v36 : IVec S10x1024 1 := cmpf .olt main_v34 main_v35
  let main_c_13 : IVec S_ 1 := constantI S_ 1 1#1
  let main_v37 : IVec S_ 1 := (fun x v => Host.reduce IntOp.andi x v reducesTo_S10x1024_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S1024 .f32) (main_arg5 : FVec F S1024x1024 .f32) (main_arg6 : FVec F S1024 .f32) (main_arg7 : FVec F S10x1024 .f32) (main_arg8 : FVec F S10 .f32) (main_arg9 : FVec F S1024 .f32) (main_arg10 : FVec F S1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_arg18 : FVec F S1024 .f32) (main_arg19 : FVec F S1024 .f32) (main_arg20 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S16384x784 .f32) (main_arg1 : FVec F S1024x784 .f32) (main_arg2 : FVec F S1024 .f32) (main_arg3 : FVec F S1024x1024 .f32) (main_arg4 : FVec F S1024 .f32) (main_arg5 : FVec F S1024x1024 .f32) (main_arg6 : FVec F S1024 .f32) (main_arg7 : FVec F S10x1024 .f32) (main_arg8 : FVec F S10 .f32) (main_arg9 : FVec F S1024 .f32) (main_arg10 : FVec F S1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_arg17 : FVec F S1024 .f32) (main_arg18 : FVec F S1024 .f32) (main_arg19 : FVec F S1024 .f32) (main_arg20 : FVec F S1024 .f32) : IVec S_ 1 :=
  let main_v0 : FVec F S16384x784 .f32 := Host.absf main_arg0
  let main_cst : FVec F S_ .f32 := constant S_ .f32 0x7F800000#32
  let main_v1 : FVec F S16384x784 .f32 := broadcastInDim S16384x784 ![] bcast_S_S16384x784 main_cst
  let main_v2 : IVec S16384x784 1 := cmpf .olt main_v0 main_v1
  let main_c : IVec S_ 1 := constantI S_ 1 1#1
  let main_v3 : IVec S_ 1 := (fun x v => Host.reduce IntOp.andi x v reducesTo_S16384x784_S_d0_1 h_S_) main_v2 main_c
  let main_v4 : FVec F S1024x784 .f32 := Host.absf main_arg1
  let main_cst_0 : FVec F S_ .f32 := constant S_ .f32 0x7F800000#32
  let main_v5 : FVec F S1024x784 .f32 := broadcastInDim S1024x784 ![] bcast_S_S1024x784 main_cst_0
  let main_v6 : IVec S1024x784 1 := cmpf .olt main_v4 main_v5
  let main_c_1 : IVec S_ 1 := constantI S_ 1 1#1
  let main_v7 : IVec S_ 1 := (fun x v => Host.reduce IntOp.andi x v reducesTo_S1024x784_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S16384x784 : Shape := ⟨2, ![16384, 784]⟩
abbrev S1024x784 : Shape := ⟨2, ![1024, 784]⟩
abbrev S1024 : Shape := ⟨1, ![1024]⟩
abbrev S1024x1024 : Shape := ⟨2, ![1024, 1024]⟩
abbrev S10x1024 : Shape := ⟨2, ![10, 1024]⟩
abbrev S10 : Shape := ⟨1, ![10]⟩
abbrev S784x1024 : Shape := ⟨2, ![784, 1024]⟩
abbrev S1024x10 : Shape := ⟨2, ![1024, 10]⟩
abbrev S_ : Shape := ⟨0, ![]⟩
abbrev S1x1024 : Shape := ⟨2, ![1, 1024]⟩
abbrev S1x10 : Shape := ⟨2, ![1, 10]⟩
abbrev S16384x10 : Shape := ⟨2, ![16384, 10]⟩
abbrev S1024x1 : Shape := ⟨2, ![1024, 1]⟩

abbrev nBuf : Space → Nat
  | .hbm => 64
  | .vmem => 18
  | .smem => 0
  | _ => 0

abbrev bufTy : (tb : Table) → Fin (tcTables nBuf tb) → BufTy
  | .hbm, ⟨0, _⟩ => ⟨S16384x784, .f32⟩
  | .hbm, ⟨1, _⟩ => ⟨S1024x784, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S10x1024, .f32⟩
  | .hbm, ⟨8, _⟩ => ⟨S10, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024x784, .f32⟩
  | .hbm, ⟨22, _⟩ => ⟨S784x1024, .f32⟩
  | .hbm, ⟨23, _⟩ => ⟨S784x1024, .bf16⟩
  | .hbm, ⟨24, _⟩ => ⟨S1024x1024, .f32⟩
  | .hbm, ⟨25, _⟩ => ⟨S1024x1024, .f32⟩
  | .hbm, ⟨26, _⟩ => ⟨S1024x1024, .bf16⟩
  | .hbm, ⟨27, _⟩ => ⟨S1024x1024, .f32⟩
  | .hbm, ⟨28, _⟩ => ⟨S1024x1024, .f32⟩
  | .hbm, ⟨29, _⟩ => ⟨S1024x1024, .bf16⟩
  | .hbm, ⟨30, _⟩ => ⟨S1024x10, .f32⟩
  | .hbm, ⟨31, _⟩ => ⟨S1024x10, .bf16⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S1024, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S1024, .f32⟩
  | .hbm, ⟨52, _⟩ => ⟨S1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x10, .f32⟩
  | .hbm, ⟨63, _⟩ => ⟨S16384x10, .f32⟩
  | .local _ .vmem, ⟨0, _⟩ => ⟨S1024x784, .f32⟩
  | .local _ .vmem, ⟨1, _⟩ => ⟨S1024x784, .f32⟩
  | .local _ .vmem, ⟨2, _⟩ => ⟨S784x1024, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x10, .bf16⟩
  | .local _ .vmem, ⟨15, _⟩ => ⟨S1x10, .f32⟩
  | .local _ .vmem, ⟨16, _⟩ => ⟨S1024x10, .f32⟩
  | .local _ .vmem, ⟨17, _⟩ => ⟨S1024x10, .f32⟩
  | _, _ => ⟨S16384x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_1 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x10 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x10 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x10 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  transposes_S1024x784_S784x1024_1_0 : S1024x784.Transposes [1, 0] S784x1024
  bitsLt_bf16_f32 : FTy.bits .bf16 < FTy.bits .f32
  transposes_S1024x1024_S1024x1024_1_0 : S1024x1024.Transposes [1, 0] S1024x1024
  transposes_S10x1024_S1024x10_1_0 : S10x1024.Transposes [1, 0] S1024x10
  bcast_S_S1024 : S_.BroadcastsInDim S1024 (![] : Fin 0 → Fin S1024.rank)
  shapeCasts_S1024_S1x1024 : S1024.ShapeCasts S1x1024
  shapeCasts_S10_S1x10 : S10.ShapeCasts S1x10
  inb_S1024x784_S1024x784_0_0 : ∀ a, (![0, 0] : Fin 2 → Nat) a + S1024x784.size a ≤ S1024x784.size a
  h_S1024x784 : 0 < S1024x784.numel
  inb_S784x1024_S784x1024_0_0 : ∀ a, (![0, 0] : Fin 2 → Nat) a + S784x1024.size a ≤ S784x1024.size a
  h_S784x1024 : 0 < S784x1024.numel
  shapeCasts_S784x1024_S784x1024 : S784x1024.ShapeCasts S784x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x10_S1024x10_0_0 : ∀ a, (![0, 0] : Fin 2 → Nat) a + S1024x10.size a ≤ S1024x10.size a
  h_S1024x10 : 0 < S1024x10.numel
  shapeCasts_S1024x10_S1024x10 : S1024x10.ShapeCasts S1024x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  reduces_S1024x10_S1024 : S1024x10.Reduces [1] S1024
  shapeCasts_S1024_S1024x1 : S1024.ShapeCasts S1024x1
  broadcasts_S1024x1_S1024x10 : S1024x1.Broadcasts S1024x10
  dot_S1024x784_S784x1024_S1024x1024_1_0_0_1_n_n_wf : DotDims.WF S1024x784 S784x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x10_S1024x10_1_0_0_1_n_n_wf : DotDims.WF S1024x1024 S1024x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S16384x784.size a
  hwx0_0 : ∀ i : grid0.Coords, EltTy.bits .f32 = 32 ∨ (Rect.block (s := S16384x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x1024.size a ≤ S784x1024.size a
  hwx0_1 : ∀ i : grid0.Coords, EltTy.bits .bf16 = 32 ∨ (Rect.block (s := S784x1024) S784x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x10.size a ≤ S1024x10.size a
  hwx0_13 : ∀ i : grid0.Coords, EltTy.bits .bf16 = 32 ∨ (Rect.block (s := S1024x10) S1024x10.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x10.size a ≤ S1x10.size a
  hwx0_14 : ∀ i : grid0.Coords, EltTy.bits .f32 = 32 ∨ (Rect.block (s := S1x10) S1x10.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x10.size a ≤ S16384x10.size a
  hwx0_15 : ∀ i : grid0.Coords, EltTy.bits .f32 = 32 ∨ (Rect.block (s := S16384x10) S1024x10.size (cc0_transform_15 i) (hinb0_15 i)).WholeWords (EltTy.packing .f32)

variable [Facts₀]

def dot_S1024x784_S784x1024_S1024x1024_1_0_0_1_n_n : DotDims S1024x784 S784x1024 S1024x1024 where
  lhsContracting := [1]
  rhsContracting := [0]
  lhsNonContracting := [0]
  rhsNonContracting := [1]
  lhsBatch := []
  rhsBatch := []
  wf := dot_S1024x784_S784x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x10_S1024x10_1_0_0_1_n_n : DotDims S1024x1024 S1024x10 S1024x10 where
  lhsContracting := [1]
  rhsContracting := [0]
  lhsNonContracting := [0]
  rhsNonContracting := [1]
  lhsBatch := []
  rhsBatch := []
  wf := dot_S1024x1024_S1024x10_S1024x10_1_0_0_1_n_n_wf

abbrev win0_0 : Pipeline.Window sig grid0 :=
  Pipeline.Window.ofSpec (Memref.whole main_arg0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S784x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v33) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v34) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v35) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v36) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v37) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v10) S1024x10.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v38) S1x10.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v39) S1024x10.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S16384x784 : Shape := ⟨2, ![16384, 784]⟩
abbrev S1024x784 : Shape := ⟨2, ![1024, 784]⟩
abbrev S1024 : Shape := ⟨1, ![1024]⟩
abbrev S1024x1024 : Shape := ⟨2, ![1024, 1024]⟩
abbrev S10x1024 : Shape := ⟨2, ![10, 1024]⟩
abbrev S10 : Shape := ⟨1, ![10]⟩
abbrev S784x1024 : Shape := ⟨2, ![784, 1024]⟩
abbrev S16384x1024 : Shape := ⟨2, ![16384, 1024]⟩
abbrev S1x1024 : Shape := ⟨2, ![1, 1024]⟩
abbrev S_ : Shape := ⟨0, ![]⟩
abbrev S1024x10 : Shape := ⟨2, ![1024, 10]⟩
abbrev S16384x10 : Shape := ⟨2, ![16384, 10]⟩
abbrev S1x10 : Shape := ⟨2, ![1, 10]⟩
abbrev S16384 : Shape := ⟨1, ![16384]⟩
abbrev S16384x1 : Shape := ⟨2, ![16384, 1]⟩

abbrev nBuf : Space → Nat
  | .hbm => 143
  | .vmem => 0
  | .smem => 0
  | _ => 0

abbrev hbmTy0_0 (i : Nat) : BufTy := match i % 128 with
  | 0 => ⟨S16384x784, .f32⟩
  | 1 => ⟨S1024x784, .f32⟩
  | 2 => ⟨S1024, .f32⟩
  | 3 => ⟨S1024x1024, .f32⟩
  | 4 => ⟨S1024, .f32⟩
  | 5 => ⟨S1024x1024, .f32⟩
  | 6 => ⟨S1024, .f32⟩
  | 7 => ⟨S10x1024, .f32⟩
  | 8 => ⟨S10, .f32⟩
  | 9 => ⟨S1024, .f32⟩
  | 10 => ⟨S1024, .f32⟩
  | 11 => ⟨S1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S1024, .f32⟩
  | 19 => ⟨S1024, .f32⟩
  | 20 => ⟨S1024, .f32⟩
  | 21 => ⟨S1024x784, .f32⟩
  | 22 => ⟨S1024x784, .f32⟩
  | 23 => ⟨S1024x784, .f32⟩
  | 24 => ⟨S784x1024, .f32⟩
  | 25 => ⟨S16384x1024, .f32⟩
  | 26 => ⟨S1x1024, .f32⟩
  | 27 => ⟨S16384x1024, .f32⟩
  | 28 => ⟨S16384x1024, .f32⟩
  | 29 => ⟨S1x1024, .f32⟩
  | 30 => ⟨S16384x1024, .f32⟩
  | 31 => ⟨S16384x1024, .f32⟩
  | 32 => ⟨S_, .f32⟩
  | 33 => ⟨S1024, .f32⟩
  | 34 => ⟨S1024, .f32⟩
  | 35 => ⟨S1024, .f32⟩
  | 36 => ⟨S1x1024, .f32⟩
  | 37 => ⟨S16384x1024, .f32⟩
  | 38 => ⟨S16384x1024, .f32⟩
  | 39 => ⟨S1x1024, .f32⟩
  | 40 => ⟨S16384x1024, .f32⟩
  | 41 => ⟨S16384x1024, .f32⟩
  | 42 => ⟨S1x1024, .f32⟩
  | 43 => ⟨S16384x1024, .f32⟩
  | 44 => ⟨S16384x1024, .f32⟩
  | 45 => ⟨S_, .f32⟩
  | 46 => ⟨S_, .f32⟩
  | 47 => ⟨S_, .f32⟩
  | 48 => ⟨S16384x1024, .f32⟩
  | 49 => ⟨S16384x1024, .f32⟩
  | 50 => ⟨S_, .f32⟩
  | 51 => ⟨S16384x1024, .f32⟩
  | 52 => ⟨S16384x1024, .f32⟩
  | 53 => ⟨S16384x1024, .f32⟩
  | 54 => ⟨S16384x1024, .f32⟩
  | 55 => ⟨S16384x1024, .f32⟩
  | 56 => ⟨S1024x1024, .f32⟩
  | 57 => ⟨S1024x1024, .f32⟩
  | 58 => ⟨S1024x1024, .f32⟩
  | 59 => ⟨S1024x1024, .f32⟩
  | 60 => ⟨S16384x1024, .f32⟩
  | 61 => ⟨S1x1024, .f32⟩
  | 62 => ⟨S16384x1024, .f32⟩
  | 63 => ⟨S16384x1024, .f32⟩
  | 64 => ⟨S1x1024, .f32⟩
  | 65 => ⟨S16384x1024, .f32⟩
  | 66 => ⟨S16384x1024, .f32⟩
  | 67 => ⟨S_, .f32⟩
  | 68 => ⟨S1024, .f32⟩
  | 69 => ⟨S1024, .f32⟩
  | 70 => ⟨S1024, .f32⟩
  | 71 => ⟨S1x1024, .f32⟩
  | 72 => ⟨S16384x1024, .f32⟩
  | 73 => ⟨S16384x1024, .f32⟩
  | 74 => ⟨S1x1024, .f32⟩
  | 75 => ⟨S16384x1024, .f32⟩
  | 76 => ⟨S16384x1024, .f32⟩
  | 77 => ⟨S1x1024, .f32⟩
  | 78 => ⟨S16384x1024, .f32⟩
  | 79 => ⟨S16384x1024, .f32⟩
  | 80 => ⟨S_, .f32⟩
  | 81 => ⟨S_, .f32⟩
  | 82 => ⟨S_, .f32⟩
  | 83 => ⟨S16384x1024, .f32⟩
  | 84 => ⟨S16384x1024, .f32⟩
  | 85 => ⟨S_, .f32⟩
  | 86 => ⟨S16384x1024, .f32⟩
  | 87 => ⟨S16384x1024, .f32⟩
  | 88 => ⟨S16384x1024, .f32⟩
  | 89 => ⟨S16384x1024, .f32⟩
  | 90 => ⟨S16384x1024, .f32⟩
  | 91 => ⟨S1024x1024, .f32⟩
  | 92 => ⟨S1024x1024, .f32⟩
  | 93 => ⟨S1024x1024, .f32⟩
  | 94 => ⟨S1024x1024, .f32⟩
  | 95 => ⟨S16384x1024, .f32⟩
  | 96 => ⟨S1x1024, .f32⟩
  | 97 => ⟨S16384x1024, .f32⟩
  | 98 => ⟨S16384x1024, .f32⟩
  | 99 => ⟨S1x1024, .f32⟩
  | 100 => ⟨S16384x1024, .f32⟩
  | 101 => ⟨S16384x1024, .f32⟩
  | 102 => ⟨S_, .f32⟩
  | 103 => ⟨S1024, .f32⟩
  | 104 => ⟨S1024, .f32⟩
  | 105 => ⟨S1024, .f32⟩
  | 106 => ⟨S1x1024, .f32⟩
  | 107 => ⟨S16384x1024, .f32⟩
  | 108 => ⟨S16384x1024, .f32⟩
  | 109 => ⟨S1x1024, .f32⟩
  | 110 => ⟨S16384x1024, .f32⟩
  | 111 => ⟨S16384x1024, .f32⟩
  | 112 => ⟨S1x1024, .f32⟩
  | 113 => ⟨S16384x1024, .f32⟩
  | 114 => ⟨S16384x1024, .f32⟩
  | 115 => ⟨S_, .f32⟩
  | 116 => ⟨S_, .f32⟩
  | 117 => ⟨S_, .f32⟩
  | 118 => ⟨S16384x1024, .f32⟩
  | 119 => ⟨S16384x1024, .f32⟩
  | 120 => ⟨S_, .f32⟩
  | 121 => ⟨S16384x1024, .f32⟩
  | 122 => ⟨S16384x1024, .f32⟩
  | 123 => ⟨S1024x10, .f32⟩
  | 124 => ⟨S16384x10, .f32⟩
  | 125 => ⟨S1x10, .f32⟩
  | 126 => ⟨S16384x10, .f32⟩
  | 127 => ⟨S16384x10, .f32⟩
  | _ => ⟨S16384x784, .f32⟩

abbrev hbmTy0_1 (i : Nat) : BufTy := match i % 128 with
  | 0 => ⟨S_, .f32⟩
  | 1 => ⟨S16384, .f32⟩
  | 2 => ⟨S_, .f32⟩
  | 3 => ⟨S16384, .f32⟩
  | 4 => ⟨S16384, .f32⟩
  | 5 => ⟨S16384x1, .f32⟩
  | 6 => ⟨S16384x10, .f32⟩
  | 7 => ⟨S16384x10, .f32⟩
  | 8 => ⟨S16384x10, .f32⟩
  | 9 => ⟨S_, .f32⟩
  | 10 => ⟨S16384, .f32⟩
  | 11 => ⟨S16384x1, .f32⟩
  | 12 => ⟨S16384x1, .f32⟩
  | 13 => ⟨S16384x10, .f32⟩
  | 14 => ⟨S16384x10, .f32⟩
  | _ => ⟨S16384x784, .f32⟩

abbrev hbmTy (i : Nat) : BufTy := match i / 128 with
  | 0 => hbmTy0_0 i
  | 1 => hbmTy0_1 i
  | _ => ⟨S16384x784, .f32⟩

abbrev bufTy : (tb : Table) → Fin (tcTables nBuf tb) → BufTy
  | .hbm, ⟨i, _⟩ => hbmTy i
  | _, _ => ⟨S16384x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_0 : Ref sig .tc := ⟨.hbm, 45, rfl⟩
abbrev main_cst_1 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_2 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_3 : Ref sig .tc := ⟨.hbm, 80, rfl⟩
abbrev main_cst_4 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_5 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_6 : Ref sig .tc := ⟨.hbm, 115, rfl⟩
abbrev main_cst_7 : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_call3_cst : Ref sig .tc := ⟨.hbm, 128, rfl⟩
abbrev main_call3_v0 : Ref sig .tc := ⟨.hbm, 129, rfl⟩
abbrev main_call3_cst_0 : Ref sig .tc := ⟨.hbm, 130, rfl⟩
abbrev main_call3_v1 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_v6 : Ref sig .tc := ⟨.hbm, 136, rfl⟩
abbrev main_call3_cst_1 : Ref sig .tc := ⟨.hbm, 137, rfl⟩
abbrev main_call3_v7 : Ref sig .tc := ⟨.hbm, 138, rfl⟩
abbrev main_call3_v8 : Ref sig .tc := ⟨.hbm, 139, rfl⟩
abbrev main_call3_v9 : Ref sig .tc := ⟨.hbm, 140, rfl⟩
abbrev main_call3_v10 : Ref sig .tc := ⟨.hbm, 141, rfl⟩
abbrev main_v83 : Ref sig .tc := ⟨.hbm, 142, rfl⟩

abbrev nD : Nat := 1
abbrev τ : Topo := Topo.v7x

variable {F : FTy → Type} [FloatOps F]

class Facts₀ : Prop where
  transposes_S1024x784_S784x1024_1_0 : S1024x784.Transposes [1, 0] S784x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S1024 : S_.BroadcastsInDim S1024 (![] : Fin 0 → Fin S1024.rank)
  bcast_S_S16384x1024 : S_.BroadcastsInDim S16384x1024 (![] : Fin 0 → Fin S16384x1024.rank)
  transposes_S1024x1024_S1024x1024_1_0 : S1024x1024.Transposes [1, 0] S1024x1024
  transposes_S10x1024_S1024x10_1_0 : S10x1024.Transposes [1, 0] S1024x10
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  reducesTo_S16384x10_S16384_d1 : S16384x10.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x10_0_1 : S16384x1.BroadcastsInDim S16384x10 (![0, 1] : Fin 2 → Fin S16384x10.rank)
  dot_S16384x784_S784x1024_S16384x1024_1_0_0_1_n_n_wf : DotDims.WF S16384x784 S784x1024 S16384x1024 [1] [0] [0] [1] [] []
  dot_S16384x1024_S1024x1024_S16384x1024_1_0_0_1_n_n_wf : DotDims.WF S16384x1024 S1024x1024 S16384x1024 [1] [0] [0] [1] [] []
  dot_S16384x1024_S1024x10_S16384x10_1_0_0_1_n_n_wf : DotDims.WF S16384x1024 S1024x10 S16384x10 [1] [0] [0] [1] [] []

variable [Facts₀]

def dot_S16384x784_S784x1024_S16384x1024_1_0_0_1_n_n : DotDims S16384x784 S784x1024 S16384x1024 where
  lhsContracting := [1]
  rhsContracting := [0]
  lhsNonContracting := [0]
  rhsNonContracting := [1]
  lhsBatch := []
  rhsBatch := []
  wf := dot_S16384x784_S784x1024_S16384x1024_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x1024_S1024x10_S16384x10_1_0_0_1_n_n : DotDims S16384x1024 S1024x10 S16384x10 where
  lhsContracting := [1]
  rhsContracting := [0]
  lhsNonContracting := [0]
  rhsNonContracting := [1]
  lhsBatch := []
  rhsBatch := []
  wf := dot_S16384x1024_S1024x10_S16384x10_1_0_0_1_n_n_wf

class Facts : Prop extends Facts₀ where

variable [Facts]
-- ==== Proof.BnnSpec.lean ====
/-
  A three-hidden-layer binarized perceptron with inference batch normalisation, hard-tanh and a final
  log-softmax, written for ONE input row over the extended reals, in two arrangements of the same arithmetic.

  For a row `a` of 784 features and layer parameters `W, b, γ, β, μ, σ²`:
  * the FOLDED arrangement multiplies the pre-activation `z = a·sign(W)ᵀ + b` by the per-feature scale
    `s = γ · rsqrt(σ² + ε)` and adds the shift `t = β − μ·s`;
  * the UNFOLDED arrangement computes `(z − μ) · rsqrt(σ² + ε) · γ + β`, and binarizes by the
    straight-through form `x + (sign x − x)` instead of `sign x`.
  Both clip to [−1, 1], binarize the first two hidden layers' outputs, feed the third (clipped, not binarized)
  to a dense layer of 10 logits and take the log-softmax with the row maximum subtracted.
-/
import Idealize.ShloMosaic.PureOps.Ideal
import Idealize.ShloMosaic.PureOps.Ideal.Laws
import Idealize.ShloMosaic.Lib.ValueIdx

noncomputable section

open scoped BigOperators

namespace Cert.Bnn

open Idealize.ShloMosaic

/-- The f32 words the two programs spell, as the extended reals they denote. -/
abbrev one32 : EReal := Ideal.ofBits .f32 0x3F800000#32
abbrev negOne32 : EReal := Ideal.ofBits .f32 0xBF800000#32
abbrev eps32 : EReal := Ideal.ofBits .f32 0x3727C5AC#32
abbrev negInf32 : EReal := Ideal.ofBits .f32 0xFF800000#32

/-- Hard-tanh: clip to [−1, 1]. -/
def clip1 (x : EReal) : EReal := min one32 (max negOne32 x)

/-- The straight-through binarization's forward value. -/
def ste (x : EReal) : EReal := x + (Ideal.sign x - x)

/-- A dense layer's pre-activation at output feature `j`: `∑ q, a q · W j q + b j`. -/
def lin {n k : ℕ} (W : Fin n → Fin k → EReal) (b : Fin n → EReal) (a : Fin k → EReal) (j : Fin n) : EReal :=
  (∑ q : Fin k, a q * W j q) + b j

/-- The per-feature reciprocal standard deviation `rsqrt(σ² + ε)`. -/
def rstd {n : ℕ} (v : Fin n → EReal) (j : Fin n) : EReal := Ideal.rsqrt (v j + eps32)

/-- The folded scale `γ · rsqrt(σ² + ε)`. -/
def scale {n : ℕ} (g v : Fin n → EReal) (j : Fin n) : EReal := g j * rstd v j

/-- The folded shift `β − μ · s`. -/
def shift {n : ℕ} (be mu s : Fin n → EReal) (j : Fin n) : EReal := be j - mu j * s j

/-- Batch norm and hard-tanh, folded: `clip (z · s + t)`. -/
def actFolded {n : ℕ} (g be mu v z : Fin n → EReal) (j : Fin n) : EReal :=
  clip1 (z j * scale g v j + shift be mu (scale g v) j)

/-- Batch norm and hard-tanh, unfolded: `clip ((z − μ) · rsqrt(σ² + ε) · γ + β)`. -/
def actPlain {n : ℕ} (g be mu v z : Fin n → EReal) (j : Fin n) : EReal :=
  clip1 ((z j - mu j) * rstd v j * g j + be j)

/-- Log-softmax of a row of logits with the row maximum (taken from −∞) subtracted first. -/
def rowMax {n : ℕ} (l : Fin n → EReal) : EReal := max negInf32 ((Finset.univ : Finset (Fin n)).fold max negInf32 l)
def logSoftmax {n : ℕ} (l : Fin n → EReal) (q : Fin n) : EReal :=
  (l q - rowMax l) - Ideal.log (∑ k : Fin n, Ideal.exp (l k - rowMax l))

/-- The network's parameters, as functions of their coordinates. -/
structure Params where
  w1 : Fin 1024 → Fin 784 → EReal
  b1 : Fin 1024 → EReal
  w2 : Fin 1024 → Fin 1024 → EReal
  b2 : Fin 1024 → EReal
  w3 : Fin 1024 → Fin 1024 → EReal
  b3 : Fin 1024 → EReal
  w4 : Fin 10 → Fin 1024 → EReal
  b4 : Fin 10 → EReal
  g1 : Fin 1024 → EReal
  be1 : Fin 1024 → EReal
  m1 : Fin 1024 → EReal
  v1 : Fin 1024 → EReal
  g2 : Fin 1024 → EReal
  be2 : Fin 1024 → EReal
  m2 : Fin 1024 → EReal
  v2 : Fin 1024 → EReal
  g3 : Fin 1024 → EReal
  be3 : Fin 1024 → EReal
  m3 : Fin 1024 → EReal
  v3 : Fin 1024 → EReal

/-! ## The folded arrangement, one row -/

def hidF1 (P : Params) (a : Fin 784 → EReal) : Fin 1024 → EReal :=
  actFolded P.g1 P.be1 P.m1 P.v1 (lin (fun j q => Ideal.sign (P.w1 j q)) P.b1 a)
def hidF2 (P : Params) (a : Fin 784 → EReal) : Fin 1024 → EReal :=
  actFolded P.g2 P.be2 P.m2 P.v2 (lin (fun j q => Ideal.sign (P.w2 j q)) P.b2 (fun q => Ideal.sign (hidF1 P a q)))
def hidF3 (P : Params) (a : Fin 784 → EReal) : Fin 1024 → EReal :=
  actFolded P.g3 P.be3 P.m3 P.v3 (lin (fun j q => Ideal.sign (P.w3 j q)) P.b3 (fun q => Ideal.sign (hidF2 P a q)))
def rowFolded (P : Params) (a : Fin 784 → EReal) : Fin 10 → EReal :=
  logSoftmax (lin P.w4 P.b4 (hidF3 P a))

/-! ## The unfolded arrangement, one row -/

def hidP1 (P : Params) (a : Fin 784 → EReal) : Fin 1024 → EReal :=
  actPlain P.g1 P.be1 P.m1 P.v1 (lin (fun j q => ste (P.w1 j q)) P.b1 a)
def hidP2 (P : Params) (a : Fin 784 → EReal) : Fin 1024 → EReal :=
  actPlain P.g2 P.be2 P.m2 P.v2 (lin (fun j q => ste (P.w2 j q)) P.b2 (fun q => ste (hidP1 P a q)))
def hidP3 (P : Params) (a : Fin 784 → EReal) : Fin 1024 → EReal :=
  actPlain P.g3 P.be3 P.m3 P.v3 (lin (fun j q => ste (P.w3 j q)) P.b3 (fun q => ste (hidP2 P a q)))
def rowPlain (P : Params) (a : Fin 784 → EReal) : Fin 10 → EReal :=
  logSoftmax (lin P.w4 P.b4 (hidP3 P a))

/-! ## The whole batch: arrays in, array out -/

open Idealize.ShloMosaic.ValueIdx

/-- A rank-2 and a rank-1 array of extended reals over literal extents. -/
abbrev A2 (a b : ℕ) := (⟨2, ![a, b]⟩ : Shape).Idx → EReal
abbrev A1 (a : ℕ) := (⟨1, ![a]⟩ : Shape).Idx → EReal

/-- The parameter arrays read by coordinates. -/
def paramsOf (a1 : A2 1024 784) (a2 : A1 1024) (a3 : A2 1024 1024) (a4 : A1 1024) (a5 : A2 1024 1024) (a6 : A1 1024)
    (a7 : A2 10 1024) (a8 : A1 10) (a9 a10 a11 a12 a13 a14 a15 a16 a17 a18 a19 a20 : A1 1024) : Params where
  w1 j q := a1 (ix2 j q)
  b1 j := a2 (ix1 j)
  w2 j q := a3 (ix2 j q)
  b2 j := a4 (ix1 j)
  w3 j q := a5 (ix2 j q)
  b3 j := a6 (ix1 j)
  w4 j q := a7 (ix2 j q)
  b4 j := a8 (ix1 j)
  g1 j := a9 (ix1 j)
  be1 j := a10 (ix1 j)
  m1 j := a11 (ix1 j)
  v1 j := a12 (ix1 j)
  g2 j := a13 (ix1 j)
  be2 j := a14 (ix1 j)
  m2 j := a15 (ix1 j)
  v2 j := a16 (ix1 j)
  g3 j := a17 (ix1 j)
  be3 j := a18 (ix1 j)
  m3 j := a19 (ix1 j)
  v3 j := a20 (ix1 j)

/-- Row `i 0` of the input batch. -/
def rowOf (a0 : A2 16384 784) (r : Fin 16384) : Fin 784 → EReal := fun k => a0 (ix2 r k)

/-- The folded network on the whole batch: entry (r, q) is the folded row function of row r at logit q. -/
def netFolded (a0 : A2 16384 784) (a1 : A2 1024 784) (a2 : A1 1024) (a3 : A2 1024 1024) (a4 : A1 1024) (a5 : A2 1024 1024) (a6 : A1 1024)
    (a7 : A2 10 1024) (a8 : A1 10) (a9 a10 a11 a12 a13 a14 a15 a16 a17 a18 a19 a20 : A1 1024) : A2 16384 10 :=
  fun i => rowFolded (paramsOf a1 a2 a3 a4 a5 a6 a7 a8 a9 a10 a11 a12 a13 a14 a15 a16 a17 a18 a19 a20) (rowOf a0 (i 0)) (i 1)

/-- The unfolded network on the whole batch. -/
def netPlain (a0 : A2 16384 784) (a1 : A2 1024 784) (a2 : A1 1024) (a3 : A2 1024 1024) (a4 : A1 1024) (a5 : A2 1024 1024) (a6 : A1 1024)
    (a7 : A2 10 1024) (a8 : A1 10) (a9 a10 a11 a12 a13 a14 a15 a16 a17 a18 a19 a20 : A1 1024) : A2 16384 10 :=
  fun i => rowPlain (paramsOf a1 a2 a3 a4 a5 a6 a7 a8 a9 a10 a11 a12 a13 a14 a15 a16 a17 a18 a19 a20) (rowOf a0 (i 0)) (i 1)

end Cert.Bnn

end
-- ==== Proof.RefIsPlain.lean ====
/-
  The reference program, read one stage at a time, is the unfolded arrangement of the binarized perceptron.

  Each stage of the reference is read at an index (r, j): a dense layer's pre-activation is the sum over the
  contraction coordinate of the previous stage at (r, k) times the transposed weight at (k, j), plus the bias at j;
  inference batch normalisation is ((z − μ) · rsqrt(σ² + ε)) · γ + β with the four per-feature vectors read at j; the
  clip is min 1 (max (−1) ·); the straight-through binarization is x + (sign x − x). The row maximum of the
  log-softmax is a fold of max from −∞ over the ten logits of the row, and the float sum of the exponentials starts
  from the word 0, which denotes 0. Stage by stage these are the functions `lin`, `actPlain`, `ste`, `logSoftmax` of
  the specification, so the result stage is `netPlain` of the twenty-one arguments (`ref_eq`).
-/
import proofs.«179161_j77189152243989_1_alg».proof.Proof.RefReadP
import proofs.«179161_j77189152243989_1_alg».proof.Proof.BnnSpec
import Idealize.ShloMosaic.Lib.ValueIdx
import Idealize.ShloMosaic.Lib.Pipeline.Value
import Idealize.ShloMosaic.PureOps.Ideal.Laws

noncomputable section

open scoped BigOperators

namespace Cert.RefIsPlain

open Cert.ReferenceIdeal Cert.ReferenceIdeal.Gen Cert.ReferenceIdeal.ReadP Idealize.ShloMosaic Idealize.ShloMosaic.ValueIdx

/-- Two indices of rank 2 (rank 1) are equal when their coordinates are. -/
local macro "idx2" : tactic => `(tactic| (funext a; match a with | ⟨0, _⟩ => rfl | ⟨1, _⟩ => rfl))
local macro "idx1" : tactic => `(tactic| (funext a; match a with | ⟨0, _⟩ => rfl))

/-- A sum of products plus a bias is a dense layer's pre-activation `∑ q, a q · W j q + b j` once the two factors
    and the bias are identified. -/
theorem lin_eq {n k : ℕ} (W : Fin n → Fin k → EReal) (b : Fin n → EReal) (a : Fin k → EReal) (j : Fin n)
    (L R : Fin k → EReal) (c : EReal) (hL : ∀ q, L q = a q) (hR : ∀ q, R q = W j q) (hc : c = b j) :
    (∑ q : Fin k, L q * R q) + c = Bnn.lin W b a j := by
  unfold Bnn.lin
  rw [hc]
  exact congrArg (· + b j) (Finset.sum_congr rfl fun q _ => by rw [hL q, hR q])

section
variable (x0 : (⟨S16384x784, .f32⟩ : BufTy).Contents (Elt Ideal)) (x1 : (⟨S1024x784, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S10x1024, .f32⟩ : BufTy).Contents (Elt Ideal)) (x8 : (⟨S10, .f32⟩ : BufTy).Contents (Elt Ideal)) (x9 x10 x11 x12 x13 x14 x15 x16 x17 x18 x19 x20 : (⟨S1024, .f32⟩ : BufTy).Contents (Elt Ideal))

/-! ## First hidden layer -/

/-- The transposed, straight-through-binarized weight at (k, j) is `ste` of the weight at (j, k). -/
theorem wT1 (k : Fin 784) (j : Fin 1024) :
    val_main_v3 (F := Ideal) x1 (ix2 k j) = Bnn.ste (x1 (ix2 j k)) := by
  rw [val_main_v3_apply, show idx_main_v3 (ix2 k j) = ix2 j k from by idx2]
  rfl

/-- The first pre-activation at (r, j): row r of the input against the binarized first weights, plus the bias. -/
theorem pre1 (r : Fin 16384) (j : Fin 1024) :
    val_main_v7 (F := Ideal) x0 x1 x2 (ix2 r j) = Bnn.lin (fun j q => Bnn.ste ((Bnn.paramsOf x1 x2 x3 x4 x5 x6 x7 x8 x9 x10 x11 x12 x13 x14 x15 x16 x17 x18 x19 x20).w1 j q)) (Bnn.paramsOf x1 x2 x3 x4 x5 x6 x7 x8 x9 x10 x11 x12 x13 x14 x15 x16 x17 x18 x19 x20).b1 (Bnn.rowOf x0 r) j := by
  rw [val_main_v7_apply, val_main_v4_apply]
  exact lin_eq _ _ _ j
    (fun k => x0 (lidx_main_v4 (ix2 r j) k))
    (fun k => val_main_v3 (F := Ideal) x1 (ridx_main_v4 (ix2 r j) k))
    (val_main_v6 (F := Ideal) x2 (ix2 r j))
    (fun k => (congrArg (fun t => x0 t) (by idx2 : lidx_main_v4 (ix2 r j) k = ix2 r k)).trans rfl)
    (fun k => (congrArg (fun t => val_main_v3 (F := Ideal) x1 t) (by idx2 : ridx_main_v4 (ix2 r j) k = ix2 k j)).trans (wT1 x1 k j))
    ((val_main_v6_apply x2 _).trans ((val_main_v5_apply x2 _).trans
      (congrArg (fun t => x2 t) (by idx1 : idx_main_v5 (idx_main_v6 (ix2 r j)) = ix1 j))))

/-- After batch normalisation and the clip, the first hidden layer at (r, j). -/
theorem hid1 (r : Fin 16384) (j : Fin 1024) :
    val_main_v23 (F := Ideal) x0 x1 x2 x9 x10 x11 x12 (ix2 r j) = Bnn.hidP1 (Bnn.paramsOf x1 x2 x3 x4 x5 x6 x7 x8 x9 x10 x11 x12 x13 x14 x15 x16 x17 x18 x19 x20) (Bnn.rowOf x0 r) j := by
  rw [val_main_v23_apply,
    val_main_call0_v2_apply,
    val_main_v22_apply,
    val_main_v19_apply,
    val_main_v16_apply,
    val_main_v10_apply,
    pre1 x0 x1 x2 x3 x4 x5 x6 x7 x8 x9 x10 x11 x12 x13 x14 x15 x16 x17 x18 x19 x20 r j,
    val_main_v9_apply,
    val_main_v8_apply,
    val_main_v15_apply,
    val_main_v14_apply,
    val_main_v13_apply,
    val_main_v12_apply,
    val_main_v11_apply,
    val_main_cst_apply,
    val_main_v18_apply,
    val_main_v17_apply,
    val_main_v21_apply,
    val_main_v20_apply,
    val_main_call0_v4_apply,
    val_main_call0_v3_apply,
    val_main_cst_1_apply,
    val_main_call0_v1_apply,
    val_main_call0_v0_apply,
    val_main_cst_0_apply,
    show idx_main_v8 (idx_main_v9 (ix2 r j)) = ix1 j from by idx1,
    show idx_main_v14 (idx_main_v15 (ix2 r j)) = ix1 j from by idx1,
    show idx_main_v17 (idx_main_v18 (ix2 r j)) = ix1 j from by idx1,
    show idx_main_v20 (idx_main_v21 (ix2 r j)) = ix1 j from by idx1]
  rfl

/-- The first hidden layer binarized by the straight-through form. -/
theorem ste1 (r : Fin 16384) (j : Fin 1024) :
    val_main_v26 (F := Ideal) x0 x1 x2 x9 x10 x11 x12 (ix2 r j) = Bnn.ste (Bnn.hidP1 (Bnn.paramsOf x1 x2 x3 x4 x5 x6 x7 x8 x9 x10 x11 x12 x13 x14 x15 x16 x17 x18 x19 x20) (Bnn.rowOf x0 r) j) := by
  rw [val_main_v26_apply, val_main_v25_apply, val_main_v24_apply, hid1 x0 x1 x2 x3 x4 x5 x6 x7 x8 x9 x10 x11 x12 x13 x14 x15 x16 x17 x18 x19 x20 r j]
  rfl

/-! ## Second hidden layer -/

/-- The transposed, straight-through-binarized weight at (k, j) is `ste` of the weight at (j, k). -/
theorem wT2 (k : Fin 1024) (j : Fin 1024) :
    val_main_v30 (F := Ideal) x3 (ix2 k j) = Bnn.ste (x3 (ix2 j k)) := by
  rw [val_main_v30_apply, show idx_main_v30 (ix2 k j) = ix2 j k from by idx2]
  rfl

/-- The second pre-activation at (r, j). -/
theorem pre2 (r : Fin 16384) (j : Fin 1024) :
    val_main_v34 (F := Ideal) x0 x1 x2 x3 x4 x9 x10 x11 x12 (ix2 r j) = Bnn.lin (fun j q => Bnn.ste ((Bnn.paramsOf x1 x2 x3 x4 x5 x6 x7 x8 x9 x10 x11 x12 x13 x14 x15 x16 x17 x18 x19 x20).w2 j q)) (Bnn.paramsOf x1 x2 x3 x4 x5 x6 x7 x8 x9 x10 x11 x12 x13 x14 x15 x16 x17 x18 x19 x20).b2 (fun q => Bnn.ste (Bnn.hidP1 (Bnn.paramsOf x1 x2 x3 x4 x5 x6 x7 x8 x9 x10 x11 x12 x13 x14 x15 x16 x17 x18 x19 x20) (Bnn.rowOf x0 r) q)) j := by
  rw [val_main_v34_apply, val_main_v31_apply]
  exact lin_eq _ _ _ j
    (fun k => val_main_v26 (F := Ideal) x0 x1 x2 x9 x10 x11 x12 (lidx_main_v31 (ix2 r j) k))
    (fun k => val_main_v30 (F := Ideal) x3 (ridx_main_v31 (ix2 r j) k))
    (val_main_v33 (F := Ideal) x4 (ix2 r j))
    (fun k => (congrArg (fun t => val_main_v26 (F := Ideal) x0 x1 x2 x9 x10 x11 x12 t) (by idx2 : lidx_main_v31 (ix2 r j) k = ix2 r k)).trans (ste1 x0 x1 x2 x3 x4 x5 x6 x7 x8 x9 x10 x11 x12 x13 x14 x15 x16 x17 x18 x19 x20 r k))
    (fun k => (congrArg (fun t => val_main_v30 (F := Ideal) x3 t) (by idx2 : ridx_main_v31 (ix2 r j) k = ix2 k j)).trans (wT2 x3 k j))
    ((val_main_v33_apply x4 _).trans ((val_main_v32_apply x4 _).trans
      (congrArg (fun t => x4 t) (by idx1 : idx_main_v32 (idx_main_v33 (ix2 r j)) = ix1 j))))

/-- After batch normalisation and the clip, the second hidden layer at (r, j). -/
theorem hid2 (r : Fin 16384) (j : Fin 1024) :
    val_main_v50 (F := Ideal) x0 x1 x2 x3 x4 x9 x10 x11 x12 x13 x14 x15 x16 (ix2 r j) = Bnn.hidP2 (Bnn.paramsOf x1 x2 x3 x4 x5 x6 x7 x8 x9 x10 x11 x12 x13 x14 x15 x16 x17 x18 x19 x20) (Bnn.rowOf x0 r) j := by
  rw [val_main_v50_apply,
    val_main_call1_v2_apply,
    val_main_v49_apply,
    val_main_v46_apply,
    val_main_v43_apply,
    val_main_v37_apply,
    pre2 x0 x1 x2 x3 x4 x5 x6 x7 x8 x9 x10 x11 x12 x13 x14 x15 x16 x17 x18 x19 x20 r j,
    val_main_v36_apply,
    val_main_v35_apply,
    val_main_v42_apply,
    val_main_v41_apply,
    val_main_v40_apply,
    val_main_v39_apply,
    val_main_v38_apply,
    val_main_cst_2_apply,
    val_main_v45_apply,
    val_main_v44_apply,
    val_main_v48_apply,
    val_main_v47_apply,
    val_main_call1_v4_apply,
    val_main_call1_v3_apply,
    val_main_cst_4_apply,
    val_main_call1_v1_apply,
    val_main_call1_v0_apply,
    val_main_cst_3_apply,
    show idx_main_v35 (idx_main_v36 (ix2 r j)) = ix1 j from by idx1,
    show idx_main_v41 (idx_main_v42 (ix2 r j)) = ix1 j from by idx1,
    show idx_main_v44 (idx_main_v45 (ix2 r j)) = ix1 j from by idx1,
    show idx_main_v47 (idx_main_v48 (ix2 r j)) = ix1 j from by idx1]
  rfl

/-- The second hidden layer binarized by the straight-through form. -/
theorem ste2 (r : Fin 16384) (j : Fin 1024) :
    val_main_v53 (F := Ideal) x0 x1 x2 x3 x4 x9 x10 x11 x12 x13 x14 x15 x16 (ix2 r j) = Bnn.ste (Bnn.hidP2 (Bnn.paramsOf x1 x2 x3 x4 x5 x6 x7 x8 x9 x10 x11 x12 x13 x14 x15 x16 x17 x18 x19 x20) (Bnn.rowOf x0 r) j) := by
  rw [val_main_v53_apply, val_main_v52_apply, val_main_v51_apply, hid2 x0 x1 x2 x3 x4 x5 x6 x7 x8 x9 x10 x11 x12 x13 x14 x15 x16 x17 x18 x19 x20 r j]
  rfl

/-! ## Third hidden layer -/

/-- The transposed, straight-through-binarized weight at (k, j) is `ste` of the weight at (j, k). -/
theorem wT3 (k : Fin 1024) (j : Fin 1024) :
    val_main_v57 (F := Ideal) x5 (ix2 k j) = Bnn.ste (x5 (ix2 j k)) := by
  rw [val_main_v57_apply, show idx_main_v57 (ix2 k j) = ix2 j k from by idx2]
  rfl

/-- The third pre-activation at (r, j). -/
theorem pre3 (r : Fin 16384) (j : Fin 1024) :
    val_main_v61 (F := Ideal) x0 x1 x2 x3 x4 x5 x6 x9 x10 x11 x12 x13 x14 x15 x16 (ix2 r j) = Bnn.lin (fun j q => Bnn.ste ((Bnn.paramsOf x1 x2 x3 x4 x5 x6 x7 x8 x9 x10 x11 x12 x13 x14 x15 x16 x17 x18 x19 x20).w3 j q)) (Bnn.paramsOf x1 x2 x3 x4 x5 x6 x7 x8 x9 x10 x11 x12 x13 x14 x15 x16 x17 x18 x19 x20).b3 (fun q => Bnn.ste (Bnn.hidP2 (Bnn.paramsOf x1 x2 x3 x4 x5 x6 x7 x8 x9 x10 x11 x12 x13 x14 x15 x16 x17 x18 x19 x20) (Bnn.rowOf x0 r) q)) j := by
  rw [val_main_v61_apply, val_main_v58_apply]
  exact lin_eq _ _ _ j
    (fun k => val_main_v53 (F := Ideal) x0 x1 x2 x3 x4 x9 x10 x11 x12 x13 x14 x15 x16 (lidx_main_v58 (ix2 r j) k))
    (fun k => val_main_v57 (F := Ideal) x5 (ridx_main_v58 (ix2 r j) k))
    (val_main_v60 (F := Ideal) x6 (ix2 r j))
    (fun k => (congrArg (fun t => val_main_v53 (F := Ideal) x0 x1 x2 x3 x4 x9 x10 x11 x12 x13 x14 x15 x16 t) (by idx2 : lidx_main_v58 (ix2 r j) k = ix2 r k)).trans (ste2 x0 x1 x2 x3 x4 x5 x6 x7 x8 x9 x10 x11 x12 x13 x14 x15 x16 x17 x18 x19 x20 r k))
    (fun k => (congrArg (fun t => val_main_v57 (F := Ideal) x5 t) (by idx2 : ridx_main_v58 (ix2 r j) k = ix2 k j)).trans (wT3 x5 k j))
    ((val_main_v60_apply x6 _).trans ((val_main_v59_apply x6 _).trans
      (congrArg (fun t => x6 t) (by idx1 : idx_main_v59 (idx_main_v60 (ix2 r j)) = ix1 j))))

/-- After batch normalisation and the clip, the third hidden layer at (r, j) (not binarized). -/
theorem hid3 (r : Fin 16384) (j : Fin 1024) :
    val_main_v77 (F := Ideal) x0 x1 x2 x3 x4 x5 x6 x9 x10 x11 x12 x13 x14 x15 x16 x17 x18 x19 x20 (ix2 r j) = Bnn.hidP3 (Bnn.paramsOf x1 x2 x3 x4 x5 x6 x7 x8 x9 x10 x11 x12 x13 x14 x15 x16 x17 x18 x19 x20) (Bnn.rowOf x0 r) j := by
  rw [val_main_v77_apply,
    val_main_call2_v2_apply,
    val_main_v76_apply,
    val_main_v73_apply,
    val_main_v70_apply,
    val_main_v64_apply,
    pre3 x0 x1 x2 x3 x4 x5 x6 x7 x8 x9 x10 x11 x12 x13 x14 x15 x16 x17 x18 x19 x20 r j,
    val_main_v63_apply,
    val_main_v62_apply,
    val_main_v69_apply,
    val_main_v68_apply,
    val_main_v67_apply,
    val_main_v66_apply,
    val_main_v65_apply,
    val_main_cst_5_apply,
    val_main_v72_apply,
    val_main_v71_apply,
    val_main_v75_apply,
    val_main_v74_apply,
    val_main_call2_v4_apply,
    val_main_call2_v3_apply,
    val_main_cst_7_apply,
    val_main_call2_v1_apply,
    val_main_call2_v0_apply,
    val_main_cst_6_apply,
    show idx_main_v62 (idx_main_v63 (ix2 r j)) = ix1 j from by idx1,
    show idx_main_v68 (idx_main_v69 (ix2 r j)) = ix1 j from by idx1,
    show idx_main_v71 (idx_main_v72 (ix2 r j)) = ix1 j from by idx1,
    show idx_main_v74 (idx_main_v75 (ix2 r j)) = ix1 j from by idx1]
  rfl

/-! ## The logits -/

/-- The transposed output weight at (k, q) is the weight at (q, k). -/
theorem wT4 (k : Fin 1024) (q : Fin 10) : val_main_v78 (F := Ideal) x7 (ix2 k q) = x7 (ix2 q k) :=
  (val_main_v78_apply x7 _).trans (congrArg (fun t => x7 t) (by idx2 : idx_main_v78 (ix2 k q) = ix2 q k))

/-- The logits at (r, j): the third hidden layer of row r against the output weights, plus the bias. -/
theorem logits (r : Fin 16384) (j : Fin 10) :
    val_main_v82 (F := Ideal) x0 x1 x2 x3 x4 x5 x6 x7 x8 x9 x10 x11 x12 x13 x14 x15 x16 x17 x18 x19 x20 (ix2 r j) = Bnn.lin (Bnn.paramsOf x1 x2 x3 x4 x5 x6 x7 x8 x9 x10 x11 x12 x13 x14 x15 x16 x17 x18 x19 x20).w4 (Bnn.paramsOf x1 x2 x3 x4 x5 x6 x7 x8 x9 x10 x11 x12 x13 x14 x15 x16 x17 x18 x19 x20).b4 (Bnn.hidP3 (Bnn.paramsOf x1 x2 x3 x4 x5 x6 x7 x8 x9 x10 x11 x12 x13 x14 x15 x16 x17 x18 x19 x20) (Bnn.rowOf x0 r)) j := by
  rw [val_main_v82_apply, val_main_v79_apply]
  exact lin_eq _ _ _ j
    (fun k => val_main_v77 (F := Ideal) x0 x1 x2 x3 x4 x5 x6 x9 x10 x11 x12 x13 x14 x15 x16 x17 x18 x19 x20 (lidx_main_v79 (ix2 r j) k))
    (fun k => val_main_v78 (F := Ideal) x7 (ridx_main_v79 (ix2 r j) k))
    (val_main_v81 (F := Ideal) x8 (ix2 r j))
    (fun k => (congrArg (fun t => val_main_v77 (F := Ideal) x0 x1 x2 x3 x4 x5 x6 x9 x10 x11 x12 x13 x14 x15 x16 x17 x18 x19 x20 t) (by idx2 : lidx_main_v79 (ix2 r j) k = ix2 r k)).trans (hid3 x0 x1 x2 x3 x4 x5 x6 x7 x8 x9 x10 x11 x12 x13 x14 x15 x16 x17 x18 x19 x20 r k))
    (fun k => (congrArg (fun t => val_main_v78 (F := Ideal) x7 t) (by idx2 : ridx_main_v79 (ix2 r j) k = ix2 k j)).trans (wT4 x7 k j))
    ((val_main_v81_apply x8 _).trans ((val_main_v80_apply x8 _).trans
      (congrArg (fun t => x8 t) (by idx1 : idx_main_v80 (idx_main_v81 (ix2 r j)) = ix1 j))))

/-! ## The log-softmax -/

/-- The row maximum at r: the maximum of −∞ and the fold of `max` from −∞ over the row's ten logits. -/
theorem rmax (r : Fin 16384) :
    val_main_call3_v2 (F := Ideal) x0 x1 x2 x3 x4 x5 x6 x7 x8 x9 x10 x11 x12 x13 x14 x15 x16 x17 x18 x19 x20 (ix1 r) = Bnn.rowMax (fun q => val_main_v82 (F := Ideal) x0 x1 x2 x3 x4 x5 x6 x7 x8 x9 x10 x11 x12 x13 x14 x15 x16 x17 x18 x19 x20 (ix2 r q)) := by
  have h : S16384x10.Reduces [1] S16384 := by decide
  have hl : ∀ k : Fin (S16384x10.size 1), h.lift (ix1 r) k = ix2 r (⟨k.val, k.isLt⟩ : Fin 10) := by
    intro k; funext c; apply Fin.ext
    match c with
    | ⟨0, _⟩ => rfl
    | ⟨1, _⟩ => rfl
  have hf : (val_main_v82 (F := Ideal) x0 x1 x2 x3 x4 x5 x6 x7 x8 x9 x10 x11 x12 x13 x14 x15 x16 x17 x18 x19 x20 ∘ h.lift (ix1 r)) = fun k : Fin 10 => val_main_v82 (F := Ideal) x0 x1 x2 x3 x4 x5 x6 x7 x8 x9 x10 x11 x12 x13 x14 x15 x16 x17 x18 x19 x20 (ix2 r k) :=
    funext fun k => congrArg (val_main_v82 (F := Ideal) x0 x1 x2 x3 x4 x5 x6 x7 x8 x9 x10 x11 x12 x13 x14 x15 x16 x17 x18 x19 x20) (hl k)
  rw [val_main_call3_v2_apply, val_main_call3_v1_apply, val_main_call3_cst_0_apply]
  unfold val_main_call3_v0
  rw [Host.reduce_eq_fold_single FloatOps.maximumf _ _ reducesTo_S16384x10_S16384_d1 h h_S_]
  exact congrArg (fun f => max Bnn.negInf32 (Finset.fold max Bnn.negInf32 f (Finset.univ : Finset (Fin 10)))) hf

/-- A logit less its row's maximum. -/
theorem sub5 (r : Fin 16384) (q : Fin 10) :
    val_main_call3_v5 (F := Ideal) x0 x1 x2 x3 x4 x5 x6 x7 x8 x9 x10 x11 x12 x13 x14 x15 x16 x17 x18 x19 x20 (ix2 r q) = val_main_v82 (F := Ideal) x0 x1 x2 x3 x4 x5 x6 x7 x8 x9 x10 x11 x12 x13 x14 x15 x16 x17 x18 x19 x20 (ix2 r q) - Bnn.rowMax (fun q => val_main_v82 (F := Ideal) x0 x1 x2 x3 x4 x5 x6 x7 x8 x9 x10 x11 x12 x13 x14 x15 x16 x17 x18 x19 x20 (ix2 r q)) := by
  rw [val_main_call3_v5_apply, val_main_call3_v4_apply, val_main_call3_v3_apply,
    show idx_main_call3_v3 (idx_main_call3_v4 (ix2 r q)) = ix1 r from by idx1, rmax x0 x1 x2 x3 x4 x5 x6 x7 x8 x9 x10 x11 x12 x13 x14 x15 x16 x17 x18 x19 x20 r]
  rfl

/-- The sum over the row of the exponentials of the shifted logits (the float sum starts from the word 0). -/
theorem expsum (r : Fin 16384) :
    val_main_call3_v7 (F := Ideal) x0 x1 x2 x3 x4 x5 x6 x7 x8 x9 x10 x11 x12 x13 x14 x15 x16 x17 x18 x19 x20 (ix1 r)
      = ∑ k : Fin 10, Ideal.exp (val_main_v82 (F := Ideal) x0 x1 x2 x3 x4 x5 x6 x7 x8 x9 x10 x11 x12 x13 x14 x15 x16 x17 x18 x19 x20 (ix2 r k) - Bnn.rowMax (fun q => val_main_v82 (F := Ideal) x0 x1 x2 x3 x4 x5 x6 x7 x8 x9 x10 x11 x12 x13 x14 x15 x16 x17 x18 x19 x20 (ix2 r q))) := by
  rw [val_main_call3_v7_apply, val_main_call3_cst_1_apply, Ideal.ofBits_def, Ideal.ofBits_zero_f32, zero_add]
  refine Finset.sum_congr rfl fun k _ => ?_
  rw [show idx_main_call3_v7 (ix1 r) k = ix2 r k from by idx2, val_main_call3_v6_apply, sub5 x0 x1 x2 x3 x4 x5 x6 x7 x8 x9 x10 x11 x12 x13 x14 x15 x16 x17 x18 x19 x20 r k]
  rfl

/-- The result at (r, q) is the log-softmax of row r's logits at q. -/
theorem lsm (r : Fin 16384) (q : Fin 10) :
    val_main_v83 (F := Ideal) x0 x1 x2 x3 x4 x5 x6 x7 x8 x9 x10 x11 x12 x13 x14 x15 x16 x17 x18 x19 x20 (ix2 r q) = Bnn.logSoftmax (fun q => val_main_v82 (F := Ideal) x0 x1 x2 x3 x4 x5 x6 x7 x8 x9 x10 x11 x12 x13 x14 x15 x16 x17 x18 x19 x20 (ix2 r q)) q := by
  rw [val_main_v83_apply, sub5 x0 x1 x2 x3 x4 x5 x6 x7 x8 x9 x10 x11 x12 x13 x14 x15 x16 x17 x18 x19 x20 r q, val_main_call3_v10_apply, val_main_call3_v9_apply, val_main_call3_v8_apply,
    show idx_main_call3_v8 (idx_main_call3_v10 (ix2 r q)) = ix1 r from by idx1, expsum x0 x1 x2 x3 x4 x5 x6 x7 x8 x9 x10 x11 x12 x13 x14 x15 x16 x17 x18 x19 x20 r]
  rfl

/-- THE REFERENCE IS THE UNFOLDED NETWORK: its result stage, as a function of its twenty-one arguments, is `netPlain`. -/
theorem ref_eq : val_main_v83 (F := Ideal) x0 x1 x2 x3 x4 x5 x6 x7 x8 x9 x10 x11 x12 x13 x14 x15 x16 x17 x18 x19 x20 = (Bnn.netPlain x0 x1 x2 x3 x4 x5 x6 x7 x8 x9 x10 x11 x12 x13 x14 x15 x16 x17 x18 x19 x20 : _) := by
  funext i
  obtain ⟨r, q, rfl⟩ : ∃ (r : Fin 16384) (q : Fin 10), i = ix2 r q := ⟨i 0, i 1, eq_ix2 i⟩
  rw [lsm x0 x1 x2 x3 x4 x5 x6 x7 x8 x9 x10 x11 x12 x13 x14 x15 x16 x17 x18 x19 x20 r q,
    show (fun q => val_main_v82 (F := Ideal) x0 x1 x2 x3 x4 x5 x6 x7 x8 x9 x10 x11 x12 x13 x14 x15 x16 x17 x18 x19 x20 (ix2 r q)) = Bnn.lin (Bnn.paramsOf x1 x2 x3 x4 x5 x6 x7 x8 x9 x10 x11 x12 x13 x14 x15 x16 x17 x18 x19 x20).w4 (Bnn.paramsOf x1 x2 x3 x4 x5 x6 x7 x8 x9 x10 x11 x12 x13 x14 x15 x16 x17 x18 x19 x20).b4 (Bnn.hidP3 (Bnn.paramsOf x1 x2 x3 x4 x5 x6 x7 x8 x9 x10 x11 x12 x13 x14 x15 x16 x17 x18 x19 x20) (Bnn.rowOf x0 r)) from funext fun q => logits x0 x1 x2 x3 x4 x5 x6 x7 x8 x9 x10 x11 x12 x13 x14 x15 x16 x17 x18 x19 x20 r q]
  rfl

end

end Cert.RefIsPlain

end
-- ==== Proof.BnnAlgebra.lean ====
/-
  The two arrangements of the binarized perceptron of BnnSpec.lean agree on finite inputs with non-negative
  variances.

  Over the extended reals the two arrangements differ in three places only, and each difference vanishes on
  real numbers:
  * the straight-through binarization x + (sign x − x) is sign x for a real x (and sign x is always real);
  * the folded batch norm z·(γ·r) + (β − μ·(γ·r)) is (z − μ)·r·γ + β for reals z, γ, β, μ, r;
  * r = rsqrt(σ² + ε) is a real when σ² is a non-negative real, ε being a positive real.
  Every intermediate value is a real: a dense layer of reals is a finite sum of products of reals, and the
  hard-tanh output lies in [−1, 1] whatever its input.
-/
import proofs.«179161_j77189152243989_1_alg».proof.Proof.BnnSpec
import Idealize.ShloMosaic.PureOps.Ideal
import Idealize.ShloMosaic.PureOps.Ideal.Laws
import Idealize.ShloMosaic.Lib.IdealHost

noncomputable section

open scoped BigOperators

namespace Cert.Bnn

open Idealize.ShloMosaic

/-- An extended real that is a real number. -/
abbrev IsReal (x : EReal) : Prop := ∃ r : ℝ, x = (r : EReal)

/-! ## The literals -/

/-- The word 0x3F800000 denotes 1. -/
theorem one32_eq : one32 = 1 := Ideal.ofBits_one_f32

/-- The word 0xBF800000 denotes −1. -/
theorem negOne32_eq : negOne32 = ((-(1 : ℝ) : ℝ) : EReal) := by
  simp [Ideal.ofBits, Ideal.ieee, -EReal.coe_mul, -EReal.coe_neg]; norm_num

/-- The word 0xBF800000 denotes −1, as an extended real. -/
theorem negOne32_eq_neg_one : negOne32 = -1 := by
  rw [negOne32_eq, EReal.coe_neg, EReal.coe_one]

/-- The word 0x3727C5AC denotes the positive real 10995116 · 2⁻⁴⁰. -/
theorem eps32_pos : ∃ e : ℝ, 0 < e ∧ eps32 = (e : EReal) := by
  refine ⟨10995116 / 2 ^ 40, by norm_num, ?_⟩
  simp [Ideal.ofBits, Ideal.ieee, -EReal.coe_mul]; norm_num

/-! ## Real values -/

/-- An extended real between two reals is a real. -/
theorem isReal_of_between {x : EReal} {a b : ℝ} (ha : (a : EReal) ≤ x) (hb : x ≤ (b : EReal)) : IsReal x := by
  refine ⟨x.toReal, (EReal.coe_toReal ?_ ?_).symm⟩
  · intro h; rw [h] at hb; exact EReal.coe_ne_top b (top_le_iff.mp hb)
  · intro h; rw [h] at ha; exact EReal.coe_ne_bot a (le_bot_iff.mp ha)

/-- A sum of two reals is a real. -/
theorem isReal_add {x y : EReal} (hx : IsReal x) (hy : IsReal y) : IsReal (x + y) := by
  obtain ⟨r, rfl⟩ := hx; obtain ⟨s, rfl⟩ := hy
  exact ⟨r + s, (EReal.coe_add r s).symm⟩

/-- A product of two reals is a real. -/
theorem isReal_mul {x y : EReal} (hx : IsReal x) (hy : IsReal y) : IsReal (x * y) := by
  obtain ⟨r, rfl⟩ := hx; obtain ⟨s, rfl⟩ := hy
  exact ⟨r * s, (EReal.coe_mul r s).symm⟩

/-- The coercion of a finite sum of reals is the sum of the coercions. -/
theorem coe_finset_sum {ι : Type*} (s : Finset ι) (g : ι → ℝ) :
    ∑ q ∈ s, (g q : EReal) = ((∑ q ∈ s, g q : ℝ) : EReal) := by
  classical
  induction s using Finset.induction_on with
  | empty => simp
  | insert a s ha ih => rw [Finset.sum_insert ha, Finset.sum_insert ha, ih, EReal.coe_add]

/-- A finite sum of reals is a real. -/
theorem isReal_sum {k : ℕ} (f : Fin k → EReal) (h : ∀ q, IsReal (f q)) : IsReal (∑ q, f q) := by
  choose g hg using h
  refine ⟨∑ q, g q, ?_⟩
  rw [show f = fun q => (g q : EReal) from funext hg]
  exact coe_finset_sum Finset.univ g

/-- Hard-tanh yields a real in [−1, 1] whatever its argument, the infinities included. -/
theorem isReal_clip1 (x : EReal) : IsReal (clip1 x) := by
  unfold clip1
  rw [one32_eq, negOne32_eq]
  refine isReal_of_between (a := -1) (b := 1) ?_ ?_
  · refine le_min ?_ (le_max_left _ _)
    exact EReal.coe_le_coe_iff.mpr (by norm_num)
  · exact min_le_left _ _

/-- The sign of an extended real is one of the reals −1, 0, 1. -/
theorem isReal_sign (x : EReal) : IsReal (Ideal.sign x) := by
  induction x using EReal.rec with
  | bot => exact ⟨-1, by simp⟩
  | top => exact ⟨1, by simp⟩
  | coe r => exact ⟨(SignType.sign r : ℝ), rfl⟩

/-- On a real the straight-through binarization x + (sign x − x) is sign x. -/
theorem ste_coe (r : ℝ) : ste (r : EReal) = Ideal.sign (r : EReal) := by
  unfold ste
  rw [Ideal.sign_coe, ← EReal.coe_sub, ← EReal.coe_add]
  congr 1; ring

/-- On a real the straight-through binarization is the sign. -/
theorem ste_eq_sign {x : EReal} (h : IsReal x) : ste x = Ideal.sign x := by
  obtain ⟨r, rfl⟩ := h; exact ste_coe r

/-- A dense layer of real inputs, real weights and a real bias has a real pre-activation. -/
theorem isReal_lin {n k : ℕ} (W : Fin n → Fin k → EReal) (b : Fin n → EReal) (a : Fin k → EReal) (j : Fin n)
    (ha : ∀ q, IsReal (a q)) (hW : ∀ q, IsReal (W j q)) (hb : IsReal (b j)) : IsReal (lin W b a j) :=
  isReal_add (isReal_sum _ fun q => isReal_mul (ha q) (hW q)) hb

/-- For a non-negative real variance the reciprocal standard deviation rsqrt(σ² + ε) is a real. -/
theorem isReal_rstd {n : ℕ} (v : Fin n → EReal) (j : Fin n) (hv : IsReal (v j)) (hnn : (0 : EReal) ≤ v j) :
    IsReal (rstd v j) := by
  obtain ⟨r, hr⟩ := hv
  obtain ⟨e, he, hE⟩ := eps32_pos
  have hr0 : 0 ≤ r := by rw [hr] at hnn; exact_mod_cast hnn
  unfold rstd
  rw [hr, hE, ← EReal.coe_add, Ideal.rsqrt_coe, if_neg (not_lt.mpr (by linarith)), if_neg (ne_of_gt (by linarith))]
  exact ⟨_, rfl⟩

/-! ## The batch-norm identity -/

/-- For reals, z·(γ·r) + (β − μ·(γ·r)) = (z − μ)·r·γ + β. -/
theorem bn_identity (z g b m r : ℝ) :
    (z : EReal) * ((g : EReal) * (r : EReal)) + ((b : EReal) - (m : EReal) * ((g : EReal) * (r : EReal)))
      = ((z : EReal) - (m : EReal)) * (r : EReal) * (g : EReal) + (b : EReal) := by
  simp only [← EReal.coe_mul, ← EReal.coe_sub, ← EReal.coe_add]
  congr 1; ring

/-- Folded and unfolded batch norm with hard-tanh agree at a feature whose pre-activation and parameters are
    reals and whose variance is a non-negative real. -/
theorem act_eq {n : ℕ} (g be mu v z : Fin n → EReal) (j : Fin n) (hz : IsReal (z j)) (hg : IsReal (g j))
    (hb : IsReal (be j)) (hm : IsReal (mu j)) (hv : IsReal (v j)) (hnn : (0 : EReal) ≤ v j) :
    actFolded g be mu v z j = actPlain g be mu v z j := by
  obtain ⟨z', hz⟩ := hz; obtain ⟨g', hg⟩ := hg; obtain ⟨b', hb⟩ := hb; obtain ⟨m', hm⟩ := hm
  obtain ⟨r, hr⟩ := isReal_rstd v j hv hnn
  simp only [actFolded, actPlain, shift, scale]
  rw [hz, hg, hb, hm, hr, bn_identity]

/-! ## One hidden layer -/

/-- One hidden layer: with real weights, bias and batch-norm parameters, non-negative variances and a real
    input row, the folded layer on sign-binarized weights is the unfolded layer on straight-through weights. -/
theorem layer_eq {n k : ℕ} (W : Fin n → Fin k → EReal) (b g be mu v : Fin n → EReal) (x y : Fin k → EReal)
    (hW : ∀ j q, IsReal (W j q)) (hb : ∀ j, IsReal (b j)) (hg : ∀ j, IsReal (g j)) (hbe : ∀ j, IsReal (be j))
    (hmu : ∀ j, IsReal (mu j)) (hv : ∀ j, IsReal (v j)) (hnn : ∀ j, (0 : EReal) ≤ v j)
    (hx : ∀ q, IsReal (x q)) (hxy : x = y) :
    actFolded g be mu v (lin (fun j q => Ideal.sign (W j q)) b x)
      = actPlain g be mu v (lin (fun j q => ste (W j q)) b y) := by
  subst hxy
  have hw : (fun j q => ste (W j q)) = fun j q => Ideal.sign (W j q) :=
    funext fun j => funext fun q => ste_eq_sign (hW j q)
  rw [hw]
  funext j
  exact act_eq g be mu v _ j (isReal_lin _ b x j hx (fun q => isReal_sign _) (hb j)) (hg j) (hbe j) (hmu j) (hv j)
    (hnn j)

/-- The binarized output of a folded layer is the straight-through output of the equal unfolded layer. -/
theorem sign_act_eq_ste_act {n : ℕ} (g be mu v z : Fin n → EReal) (u : Fin n → EReal)
    (h : actFolded g be mu v z = u) :
    (fun q => Ideal.sign (actFolded g be mu v z q)) = fun q => ste (u q) := by
  subst h
  funext q
  exact (ste_eq_sign (isReal_clip1 _)).symm

/-! ## The network -/

/-- The parameters other than the last dense layer's are reals, and the variances are non-negative. -/
structure Params.Finite (P : Params) : Prop where
  w1 : ∀ j q, IsReal (P.w1 j q)
  b1 : ∀ j, IsReal (P.b1 j)
  w2 : ∀ j q, IsReal (P.w2 j q)
  b2 : ∀ j, IsReal (P.b2 j)
  w3 : ∀ j q, IsReal (P.w3 j q)
  b3 : ∀ j, IsReal (P.b3 j)
  g1 : ∀ j, IsReal (P.g1 j)
  be1 : ∀ j, IsReal (P.be1 j)
  m1 : ∀ j, IsReal (P.m1 j)
  v1 : ∀ j, IsReal (P.v1 j)
  g2 : ∀ j, IsReal (P.g2 j)
  be2 : ∀ j, IsReal (P.be2 j)
  m2 : ∀ j, IsReal (P.m2 j)
  v2 : ∀ j, IsReal (P.v2 j)
  g3 : ∀ j, IsReal (P.g3 j)
  be3 : ∀ j, IsReal (P.be3 j)
  m3 : ∀ j, IsReal (P.m3 j)
  v3 : ∀ j, IsReal (P.v3 j)
  n1 : ∀ j, (0 : EReal) ≤ P.v1 j
  n2 : ∀ j, (0 : EReal) ≤ P.v2 j
  n3 : ∀ j, (0 : EReal) ≤ P.v3 j

/-- The first hidden layers agree on a real row. -/
theorem hid1_eq (P : Params) (a : Fin 784 → EReal) (hP : P.Finite) (ha : ∀ q, IsReal (a q)) :
    hidF1 P a = hidP1 P a :=
  layer_eq P.w1 P.b1 P.g1 P.be1 P.m1 P.v1 a a hP.w1 hP.b1 hP.g1 hP.be1 hP.m1 hP.v1 hP.n1 ha rfl

/-- The second hidden layers agree on a real row. -/
theorem hid2_eq (P : Params) (a : Fin 784 → EReal) (hP : P.Finite) (ha : ∀ q, IsReal (a q)) :
    hidF2 P a = hidP2 P a :=
  layer_eq P.w2 P.b2 P.g2 P.be2 P.m2 P.v2 _ _ hP.w2 hP.b2 hP.g2 hP.be2 hP.m2 hP.v2 hP.n2
    (fun q => isReal_sign _) (sign_act_eq_ste_act _ _ _ _ _ _ (hid1_eq P a hP ha))

/-- The third hidden layers agree on a real row. -/
theorem hid3_eq (P : Params) (a : Fin 784 → EReal) (hP : P.Finite) (ha : ∀ q, IsReal (a q)) :
    hidF3 P a = hidP3 P a :=
  layer_eq P.w3 P.b3 P.g3 P.be3 P.m3 P.v3 _ _ hP.w3 hP.b3 hP.g3 hP.be3 hP.m3 hP.v3 hP.n3
    (fun q => isReal_sign _) (sign_act_eq_ste_act _ _ _ _ _ _ (hid2_eq P a hP ha))

/-- The two arrangements agree on a real row: the last dense layer and the log-softmax are the same function
    of the third hidden layer on both sides. -/
theorem row_eq (P : Params) (a : Fin 784 → EReal) (hP : P.Finite) (ha : ∀ q, IsReal (a q)) :
    rowFolded P a = rowPlain P a := by
  unfold rowFolded rowPlain
  rw [hid3_eq P a hP ha]

/-- The two arrangements agree on the whole batch when every input and every parameter other than the last
    dense layer's is a real and the three variance vectors are non-negative. -/
theorem net_eq (a0 : A2 16384 784) (a1 : A2 1024 784) (a2 : A1 1024) (a3 : A2 1024 1024) (a4 : A1 1024)
    (a5 : A2 1024 1024) (a6 : A1 1024) (a7 : A2 10 1024) (a8 : A1 10)
    (a9 a10 a11 a12 a13 a14 a15 a16 a17 a18 a19 a20 : A1 1024)
    (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal))
    (h4 : ∀ i, ∃ r : ℝ, a4 i = (r : EReal)) (h5 : ∀ i, ∃ r : ℝ, a5 i = (r : EReal))
    (h6 : ∀ i, ∃ r : ℝ, a6 i = (r : EReal)) (h9 : ∀ i, ∃ r : ℝ, a9 i = (r : EReal))
    (h10 : ∀ i, ∃ r : ℝ, a10 i = (r : EReal)) (h11 : ∀ i, ∃ r : ℝ, a11 i = (r : EReal))
    (h12 : ∀ i, ∃ r : ℝ, a12 i = (r : EReal)) (h13 : ∀ i, ∃ r : ℝ, a13 i = (r : EReal))
    (h14 : ∀ i, ∃ r : ℝ, a14 i = (r : EReal)) (h15 : ∀ i, ∃ r : ℝ, a15 i = (r : EReal))
    (h16 : ∀ i, ∃ r : ℝ, a16 i = (r : EReal)) (h17 : ∀ i, ∃ r : ℝ, a17 i = (r : EReal))
    (h18 : ∀ i, ∃ r : ℝ, a18 i = (r : EReal)) (h19 : ∀ i, ∃ r : ℝ, a19 i = (r : EReal))
    (h20 : ∀ i, ∃ r : ℝ, a20 i = (r : EReal))
    (n12 : ∀ i, (0 : EReal) ≤ a12 i) (n16 : ∀ i, (0 : EReal) ≤ a16 i) (n20 : ∀ i, (0 : EReal) ≤ a20 i) :
    netFolded a0 a1 a2 a3 a4 a5 a6 a7 a8 a9 a10 a11 a12 a13 a14 a15 a16 a17 a18 a19 a20
      = netPlain a0 a1 a2 a3 a4 a5 a6 a7 a8 a9 a10 a11 a12 a13 a14 a15 a16 a17 a18 a19 a20 := by
  have hP : (paramsOf a1 a2 a3 a4 a5 a6 a7 a8 a9 a10 a11 a12 a13 a14 a15 a16 a17 a18 a19 a20).Finite :=
    { w1 := fun j q => h1 _, b1 := fun j => h2 _, w2 := fun j q => h3 _, b2 := fun j => h4 _,
      w3 := fun j q => h5 _, b3 := fun j => h6 _,
      g1 := fun j => h9 _, be1 := fun j => h10 _, m1 := fun j => h11 _, v1 := fun j => h12 _,
      g2 := fun j => h13 _, be2 := fun j => h14 _, m2 := fun j => h15 _, v2 := fun j => h16 _,
      g3 := fun j => h17 _, be3 := fun j => h18 _, m3 := fun j => h19 _, v3 := fun j => h20 _,
      n1 := fun j => n12 _, n2 := fun j => n16 _, n3 := fun j => n20 _ }
  funext i
  unfold netFolded netPlain
  rw [row_eq _ (rowOf a0 (i 0)) hP (fun q => h0 _)]

end Cert.Bnn

end
-- ==== Proof.PreDecode.lean ====
import proofs.«179161_j77189152243989_1_alg».proof.Pre_finite_inputs
import Idealize.ShloMosaic.PureOps.Ideal
import Idealize.ShloMosaic.PureOps.Ideal.Laws
import Idealize.ShloMosaic.Lib.ReduceAll

/-!
# The precondition read back at the extended reals

The precondition is a conjunction of 24 facts: for each of the 21 inputs, every element `x` satisfies
`|x| < +∞`; and for three of them every element satisfies `x ≥ 0`. At the extended reals `|x| = max x (-x)`,
so `|x| < ⊤` excludes both `⊤` and `⊥` and leaves a real number.
-/

noncomputable section

namespace Cert.PreDecode

open Idealize.ShloMosaic Cert.Pre_finite_inputs

/-- The rank-0 shape has exactly one index. -/
instance : Subsingleton S_.Idx := ⟨fun a b => funext fun d => d.elim0⟩

/-- The one index of the rank-0 shape. -/
abbrev i0 : S_.Idx := fun d => d.elim0

/-- The f32 pattern `0x7F800000` denotes `+∞`. -/
theorem ofBits_inf_f32 : Ideal.ofBits .f32 0x7F800000#32 = ⊤ := by simp [Ideal.ofBits, Ideal.ieee]

/-- `max x (-x) < ⊤` leaves only the real values of `x`. -/
theorem real_of_abs_lt_top (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- `x ≥ 0` as a comparison bit that is 1 gives the order fact. -/
theorem nonneg_of_oge_zero (x : EReal) (h : Ideal.cmp .oge x 0 = 1#1) : (0 : EReal) ≤ x := by
  by_contra hn
  simp [Ideal.cmp, hn] at h

/-- A conjunction of two rank-0 bits is 1 exactly when both are. -/
theorem andi_eq_one_iff (x y : IVec S_ 1) :
    (andi x y = fun _ => 1#1) ↔ (x = fun _ => 1#1) ∧ (y = fun _ => 1#1) := by
  constructor
  · intro h
    have h0 : IntOp.andi (x i0) (y i0) = 1#1 := congrFun h i0
    obtain ⟨hx, hy⟩ := IntOp.andi_eq_one.1 h0
    exact ⟨funext fun j => by rw [Subsingleton.elim j i0]; exact hx,
           funext fun j => by rw [Subsingleton.elim j i0]; exact hy⟩
  · rintro ⟨hx, hy⟩
    funext j
    show IntOp.andi (x j) (y j) = 1#1
    rw [hx, hy]; exact IntOp.andi_eq_one.2 ⟨rfl, rfl⟩

/-- `jnp.all(|x| < +∞)` that holds: every element of `x` is a real number. -/
theorem finite_of_all {S : Shape} (hb : S_.BroadcastsInDim S (![] : Fin 0 → Fin S.rank)) {axes : List (Fin S.rank)}
    (hr : S.ReducesTo axes S_) (h0 : 0 < S_.numel) (x : FVec Ideal S .f32) (init : IVec S_ 1)
    (h : Host.reduce IntOp.andi
          (cmpf (F := Ideal) (φ := .f32) .olt (Host.absf x) (broadcastInDim S ![] hb (constant S_ .f32 0x7F800000#32)))
          init hr h0 = fun _ => 1#1) :
    ∀ i, ∃ r : ℝ, x i = (r : EReal) := by
  intro i
  have e := Host.reduce_andi_all _ _ hr h0 i0 (congrFun h i0) i
  change Ideal.cmp .olt (max (x i) (-(x i))) (Ideal.ofBits .f32 0x7F800000#32) = 1#1 at e
  rw [ofBits_inf_f32] at e
  exact real_of_abs_lt_top _ e

/-- `jnp.all(x ≥ 0)` that holds: every element of `x` is at least zero. -/
theorem nonneg_of_all {S : Shape} (hb : S_.BroadcastsInDim S (![] : Fin 0 → Fin S.rank)) {axes : List (Fin S.rank)}
    (hr : S.ReducesTo axes S_) (h0 : 0 < S_.numel) (x : FVec Ideal S .f32) (init : IVec S_ 1)
    (h : Host.reduce IntOp.andi
          (cmpf (F := Ideal) (φ := .f32) .oge x (broadcastInDim S ![] hb (constant S_ .f32 0x00000000#32)))
          init hr h0 = fun _ => 1#1) :
    ∀ i, (0 : EReal) ≤ x i := by
  intro i
  have e := Host.reduce_andi_all _ _ hr h0 i0 (congrFun h i0) i
  change Ideal.cmp .oge (x i) (Ideal.ofBits .f32 0x00000000#32) = 1#1 at e
  rw [Ideal.ofBits_zero_f32] at e
  exact nonneg_of_oge_zero _ e

/-- What the precondition says of the inputs: every element of every input is a real number, and the elements of
    inputs 12, 16 and 20 are not negative. -/
structure Dom (a0 : S16384x784.Idx → EReal) (a1 : S1024x784.Idx → EReal) (a2 : S1024.Idx → EReal) (a3 : S1024x1024.Idx → EReal) (a4 : S1024.Idx → EReal) (a5 : S1024x1024.Idx → EReal) (a6 : S1024.Idx → EReal) (a7 : S10x1024.Idx → EReal) (a8 : S10.Idx → EReal) (a9 : S1024.Idx → EReal) (a10 : S1024.Idx → EReal) (a11 : S1024.Idx → EReal) (a12 : S1024.Idx → EReal) (a13 : S1024.Idx → EReal) (a14 : S1024.Idx → EReal) (a15 : S1024.Idx → EReal) (a16 : S1024.Idx → EReal) (a17 : S1024.Idx → EReal) (a18 : S1024.Idx → EReal) (a19 : S1024.Idx → EReal) (a20 : S1024.Idx → EReal) : Prop where
  fin0 : ∀ i, ∃ r : ℝ, a0 i = (r : EReal)
  fin1 : ∀ i, ∃ r : ℝ, a1 i = (r : EReal)
  fin2 : ∀ i, ∃ r : ℝ, a2 i = (r : EReal)
  fin3 : ∀ i, ∃ r : ℝ, a3 i = (r : EReal)
  fin4 : ∀ i, ∃ r : ℝ, a4 i = (r : EReal)
  fin5 : ∀ i, ∃ r : ℝ, a5 i = (r : EReal)
  fin6 : ∀ i, ∃ r : ℝ, a6 i = (r : EReal)
  fin7 : ∀ i, ∃ r : ℝ, a7 i = (r : EReal)
  fin8 : ∀ i, ∃ r : ℝ, a8 i = (r : EReal)
  fin9 : ∀ i, ∃ r : ℝ, a9 i = (r : EReal)
  fin10 : ∀ i, ∃ r : ℝ, a10 i = (r : EReal)
  fin11 : ∀ i, ∃ r : ℝ, a11 i = (r : EReal)
  fin12 : ∀ i, ∃ r : ℝ, a12 i = (r : EReal)
  fin13 : ∀ i, ∃ r : ℝ, a13 i = (r : EReal)
  fin14 : ∀ i, ∃ r : ℝ, a14 i = (r : EReal)
  fin15 : ∀ i, ∃ r : ℝ, a15 i = (r : EReal)
  fin16 : ∀ i, ∃ r : ℝ, a16 i = (r : EReal)
  fin17 : ∀ i, ∃ r : ℝ, a17 i = (r : EReal)
  fin18 : ∀ i, ∃ r : ℝ, a18 i = (r : EReal)
  fin19 : ∀ i, ∃ r : ℝ, a19 i = (r : EReal)
  fin20 : ∀ i, ∃ r : ℝ, a20 i = (r : EReal)
  nn12 : ∀ i, (0 : EReal) ≤ a12 i
  nn16 : ∀ i, (0 : EReal) ≤ a16 i
  nn20 : ∀ i, (0 : EReal) ≤ a20 i

/-- The precondition, holding at the extended reals, gives `Dom`: the conjunction is split from the outside in, and each
    conjunct is read back by `finite_of_all` or `nonneg_of_all`. -/
theorem dom_of_pre [Cert.Pre_finite_inputs.Facts] (a0 : S16384x784.Idx → EReal) (a1 : S1024x784.Idx → EReal) (a2 : S1024.Idx → EReal) (a3 : S1024x1024.Idx → EReal) (a4 : S1024.Idx → EReal) (a5 : S1024x1024.Idx → EReal) (a6 : S1024.Idx → EReal) (a7 : S10x1024.Idx → EReal) (a8 : S10.Idx → EReal) (a9 : S1024.Idx → EReal) (a10 : S1024.Idx → EReal) (a11 : S1024.Idx → EReal) (a12 : S1024.Idx → EReal) (a13 : S1024.Idx → EReal) (a14 : S1024.Idx → EReal) (a15 : S1024.Idx → EReal) (a16 : S1024.Idx → EReal) (a17 : S1024.Idx → EReal) (a18 : S1024.Idx → EReal) (a19 : S1024.Idx → EReal) (a20 : S1024.Idx → EReal)
    (h : Cert.Pre_finite_inputs.fn (F := Ideal) a0 a1 a2 a3 a4 a5 a6 a7 a8 a9 a10 a11 a12 a13 a14 a15 a16 a17 a18 a19 a20 = fun _ => 1#1) :
    Dom a0 a1 a2 a3 a4 a5 a6 a7 a8 a9 a10 a11 a12 a13 a14 a15 a16 a17 a18 a19 a20 := by
  dsimp only [fn, fn_part1, fn_part2, fn_part3, fn_part4, fn_part5, fn_part6] at h
  obtain ⟨h, n20⟩ := (andi_eq_one_iff _ _).1 h
  obtain ⟨h, n16⟩ := (andi_eq_one_iff _ _).1 h
  obtain ⟨h, n12⟩ := (andi_eq_one_iff _ _).1 h
  obtain ⟨h, f20⟩ := (andi_eq_one_iff _ _).1 h
  obtain ⟨h, f19⟩ := (andi_eq_one_iff _ _).1 h
  obtain ⟨h, f18⟩ := (andi_eq_one_iff _ _).1 h
  obtain ⟨h, f17⟩ := (andi_eq_one_iff _ _).1 h
  obtain ⟨h, f16⟩ := (andi_eq_one_iff _ _).1 h
  obtain ⟨h, f15⟩ := (andi_eq_one_iff _ _).1 h
  obtain ⟨h, f14⟩ := (andi_eq_one_iff _ _).1 h
  obtain ⟨h, f13⟩ := (andi_eq_one_iff _ _).1 h
  obtain ⟨h, f12⟩ := (andi_eq_one_iff _ _).1 h
  obtain ⟨h, f11⟩ := (andi_eq_one_iff _ _).1 h
  obtain ⟨h, f10⟩ := (andi_eq_one_iff _ _).1 h
  obtain ⟨h, f9⟩ := (andi_eq_one_iff _ _).1 h
  obtain ⟨h, f8⟩ := (andi_eq_one_iff _ _).1 h
  obtain ⟨h, f7⟩ := (andi_eq_one_iff _ _).1 h
  obtain ⟨h, f6⟩ := (andi_eq_one_iff _ _).1 h
  obtain ⟨h, f5⟩ := (andi_eq_one_iff _ _).1 h
  obtain ⟨h, f4⟩ := (andi_eq_one_iff _ _).1 h
  obtain ⟨h, f3⟩ := (andi_eq_one_iff _ _).1 h
  obtain ⟨h, f2⟩ := (andi_eq_one_iff _ _).1 h
  obtain ⟨f0, f1⟩ := (andi_eq_one_iff _ _).1 h
  exact ⟨finite_of_all _ _ _ _ _ f0,
    finite_of_all _ _ _ _ _ f1,
    finite_of_all _ _ _ _ _ f2,
    finite_of_all _ _ _ _ _ f3,
    finite_of_all _ _ _ _ _ f4,
    finite_of_all _ _ _ _ _ f5,
    finite_of_all _ _ _ _ _ f6,
    finite_of_all _ _ _ _ _ f7,
    finite_of_all _ _ _ _ _ f8,
    finite_of_all _ _ _ _ _ f9,
    finite_of_all _ _ _ _ _ f10,
    finite_of_all _ _ _ _ _ f11,
    finite_of_all _ _ _ _ _ f12,
    finite_of_all _ _ _ _ _ f13,
    finite_of_all _ _ _ _ _ f14,
    finite_of_all _ _ _ _ _ f15,
    finite_of_all _ _ _ _ _ f16,
    finite_of_all _ _ _ _ _ f17,
    finite_of_all _ _ _ _ _ f18,
    finite_of_all _ _ _ _ _ f19,
    finite_of_all _ _ _ _ _ f20,
    nonneg_of_all _ _ _ _ _ n12, nonneg_of_all _ _ _ _ _ n16, nonneg_of_all _ _ _ _ _ n20⟩

end Cert.PreDecode

end
-- ==== Proof.KerOps.lean ====
/-
  The kernel body's non-pointwise operations read at an index, at the extended reals: each block product as the
  sum over its contraction index, the row vectors [1, n] broadcast down the block's rows, the per-row reductions.
-/
import proofs.«179161_j77189152243989_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.RowOps

open Cert.KernelIdeal Cert.KernelIdeal.Gen Idealize.ShloMosaic Idealize.ShloMosaic.ValueIdx

/-! ## The block products -/

theorem mm1_l0 (i : S1024x1024.Idx) (q : dot_S1024x784_S784x1024_S1024x1024_1_0_0_1_n_n.contr.Idx) : (dot_S1024x784_S784x1024_S1024x1024_1_0_0_1_n_n.lhsIdx i q 0).val = (i 0).val := by
  unfold DotDims.lhsIdx
  rw [dif_neg (show ¬(0 : Fin S1024x784.rank) ∈ dot_S1024x784_S784x1024_S1024x1024_1_0_0_1_n_n.lhsBatch by decide), dif_pos (show (0 : Fin S1024x784.rank) ∈ dot_S1024x784_S784x1024_S1024x1024_1_0_0_1_n_n.lhsNonContracting by decide)]
  rfl
theorem mm1_l1 (i : S1024x1024.Idx) (q : dot_S1024x784_S784x1024_S1024x1024_1_0_0_1_n_n.contr.Idx) : (dot_S1024x784_S784x1024_S1024x1024_1_0_0_1_n_n.lhsIdx i q 1).val = (q ⟨0, by decide⟩).val :=
  dot_S1024x784_S784x1024_S1024x1024_1_0_0_1_n_n.lhsIdx_val_of_single rfl i q
theorem mm1_r0 (i : S1024x1024.Idx) (q : dot_S1024x784_S784x1024_S1024x1024_1_0_0_1_n_n.contr.Idx) : (dot_S1024x784_S784x1024_S1024x1024_1_0_0_1_n_n.rhsIdx i q 0).val = (q ⟨0, by decide⟩).val :=
  dot_S1024x784_S784x1024_S1024x1024_1_0_0_1_n_n.rhsIdx_val_of_single rfl i q
theorem mm1_r1 (i : S1024x1024.Idx) (q : dot_S1024x784_S784x1024_S1024x1024_1_0_0_1_n_n.contr.Idx) : (dot_S1024x784_S784x1024_S1024x1024_1_0_0_1_n_n.rhsIdx i q 1).val = (i 1).val := by
  unfold DotDims.rhsIdx
  rw [dif_neg (show ¬(1 : Fin S784x1024.rank) ∈ dot_S1024x784_S784x1024_S1024x1024_1_0_0_1_n_n.rhsBatch by decide), dif_pos (show (1 : Fin S784x1024.rank) ∈ dot_S1024x784_S784x1024_S1024x1024_1_0_0_1_n_n.rhsNonContracting by decide)]
  rfl

/-- The first layer's block product at (p, j): `∑ k, l (p, k) · r (k, j)` over the 784 input features. -/
theorem mm1_apply (l : FVec Ideal S1024x784 .bf16) (r : FVec Ideal S784x1024 .bf16) (p : Fin 1024) (j : Fin 1024) :
    matmul dot_S1024x784_S784x1024_S1024x1024_1_0_0_1_n_n none l r (constant S1024x1024 .f32 0x00000000#32) (ix2 p j)
      = ∑ k : Fin 784, l (ix2 p k) * r (ix2 k j) := by
  simp only [matmul]
  rw [Ideal.matmul_constant_zero_apply, ← Equiv.sum_comp (contrEquiv1 dot_S1024x784_S784x1024_S1024x1024_1_0_0_1_n_n 784 rfl rfl).symm]
  refine Finset.sum_congr rfl fun k _ => ?_
  have hk := contrEquiv1_symm_val dot_S1024x784_S784x1024_S1024x1024_1_0_0_1_n_n 784 rfl rfl k
  have el : dot_S1024x784_S784x1024_S1024x1024_1_0_0_1_n_n.lhsIdx (ix2 p j) ((contrEquiv1 dot_S1024x784_S784x1024_S1024x1024_1_0_0_1_n_n 784 rfl rfl).symm k) = ix2 p k := funext fun a => Fin.ext (by
    match a with
    | ⟨0, _⟩ => exact mm1_l0 _ _
    | ⟨1, _⟩ => exact (mm1_l1 _ _).trans hk)
  have er : dot_S1024x784_S784x1024_S1024x1024_1_0_0_1_n_n.rhsIdx (ix2 p j) ((contrEquiv1 dot_S1024x784_S784x1024_S1024x1024_1_0_0_1_n_n 784 rfl rfl).symm k) = ix2 k j := funext fun a => Fin.ext (by
    match a with
    | ⟨0, _⟩ => exact (mm1_r0 _ _).trans hk
    | ⟨1, _⟩ => exact mm1_r1 _ _)
  rw [el, er]

theorem mm2_l0 (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem mm2_l1 (i : S1024x1024.Idx) (q : dot_S1024x1024_S1024x1024_S1024x1024_1_0_0_1_n_n.contr.Idx) : (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem mm2_r0 (i : S1024x1024.Idx) (q : dot_S1024x1024_S1024x1024_S1024x1024_1_0_0_1_n_n.contr.Idx) : (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem mm2_r1 (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- A hidden layer's block product at (p, j): `∑ k, l (p, k) · r (k, j)` over the 1024 hidden features. -/
theorem mm2_apply (l : FVec Ideal S1024x1024 .bf16) (r : FVec Ideal S1024x1024 .bf16) (p : Fin 1024) (j : Fin 1024) :
    matmul dot_S1024x1024_S1024x1024_S1024x1024_1_0_0_1_n_n none l r (constant S1024x1024 .f32 0x00000000#32) (ix2 p j)
      = ∑ k : Fin 1024, l (ix2 p k) * r (ix2 k j) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p j) ((contrEquiv1 dot_S1024x1024_S1024x1024_S1024x1024_1_0_0_1_n_n 1024 rfl rfl).symm k) = ix2 p k := funext fun a => Fin.ext (by
    match a with
    | ⟨0, _⟩ => exact mm2_l0 _ _
    | ⟨1, _⟩ => exact (mm2_l1 _ _).trans hk)
  have er : dot_S1024x1024_S1024x1024_S1024x1024_1_0_0_1_n_n.rhsIdx (ix2 p j) ((contrEquiv1 dot_S1024x1024_S1024x1024_S1024x1024_1_0_0_1_n_n 1024 rfl rfl).symm k) = ix2 k j := funext fun a => Fin.ext (by
    match a with
    | ⟨0, _⟩ => exact (mm2_r0 _ _).trans hk
    | ⟨1, _⟩ => exact mm2_r1 _ _)
  rw [el, er]

theorem mm4_l0 (i : S1024x10.Idx) (q : dot_S1024x1024_S1024x10_S1024x10_1_0_0_1_n_n.contr.Idx) : (dot_S1024x1024_S1024x10_S1024x10_1_0_0_1_n_n.lhsIdx i q 0).val = (i 0).val := by
  unfold DotDims.lhsIdx
  rw [dif_neg (show ¬(0 : Fin S1024x1024.rank) ∈ dot_S1024x1024_S1024x10_S1024x10_1_0_0_1_n_n.lhsBatch by decide), dif_pos (show (0 : Fin S1024x1024.rank) ∈ dot_S1024x1024_S1024x10_S1024x10_1_0_0_1_n_n.lhsNonContracting by decide)]
  rfl
theorem mm4_l1 (i : S1024x10.Idx) (q : dot_S1024x1024_S1024x10_S1024x10_1_0_0_1_n_n.contr.Idx) : (dot_S1024x1024_S1024x10_S1024x10_1_0_0_1_n_n.lhsIdx i q 1).val = (q ⟨0, by decide⟩).val :=
  dot_S1024x1024_S1024x10_S1024x10_1_0_0_1_n_n.lhsIdx_val_of_single rfl i q
theorem mm4_r0 (i : S1024x10.Idx) (q : dot_S1024x1024_S1024x10_S1024x10_1_0_0_1_n_n.contr.Idx) : (dot_S1024x1024_S1024x10_S1024x10_1_0_0_1_n_n.rhsIdx i q 0).val = (q ⟨0, by decide⟩).val :=
  dot_S1024x1024_S1024x10_S1024x10_1_0_0_1_n_n.rhsIdx_val_of_single rfl i q
theorem mm4_r1 (i : S1024x10.Idx) (q : dot_S1024x1024_S1024x10_S1024x10_1_0_0_1_n_n.contr.Idx) : (dot_S1024x1024_S1024x10_S1024x10_1_0_0_1_n_n.rhsIdx i q 1).val = (i 1).val := by
  unfold DotDims.rhsIdx
  rw [dif_neg (show ¬(1 : Fin S1024x10.rank) ∈ dot_S1024x1024_S1024x10_S1024x10_1_0_0_1_n_n.rhsBatch by decide), dif_pos (show (1 : Fin S1024x10.rank) ∈ dot_S1024x1024_S1024x10_S1024x10_1_0_0_1_n_n.rhsNonContracting by decide)]
  rfl

/-- The last layer's block product at (p, j): `∑ k, l (p, k) · r (k, j)` over the 1024 hidden features, for the 10 logits. -/
theorem mm4_apply (l : FVec Ideal S1024x1024 .bf16) (r : FVec Ideal S1024x10 .bf16) (p : Fin 1024) (j : Fin 10) :
    matmul dot_S1024x1024_S1024x10_S1024x10_1_0_0_1_n_n none l r (constant S1024x10 .f32 0x00000000#32) (ix2 p j)
      = ∑ k : Fin 1024, l (ix2 p k) * r (ix2 k j) := by
  simp only [matmul]
  rw [Ideal.matmul_constant_zero_apply, ← Equiv.sum_comp (contrEquiv1 dot_S1024x1024_S1024x10_S1024x10_1_0_0_1_n_n 1024 rfl rfl).symm]
  refine Finset.sum_congr rfl fun k _ => ?_
  have hk := contrEquiv1_symm_val dot_S1024x1024_S1024x10_S1024x10_1_0_0_1_n_n 1024 rfl rfl k
  have el : dot_S1024x1024_S1024x10_S1024x10_1_0_0_1_n_n.lhsIdx (ix2 p j) ((contrEquiv1 dot_S1024x1024_S1024x10_S1024x10_1_0_0_1_n_n 1024 rfl rfl).symm k) = ix2 p k := funext fun a => Fin.ext (by
    match a with
    | ⟨0, _⟩ => exact mm4_l0 _ _
    | ⟨1, _⟩ => exact (mm4_l1 _ _).trans hk)
  have er : dot_S1024x1024_S1024x10_S1024x10_1_0_0_1_n_n.rhsIdx (ix2 p j) ((contrEquiv1 dot_S1024x1024_S1024x10_S1024x10_1_0_0_1_n_n 1024 rfl rfl).symm k) = ix2 k j := funext fun a => Fin.ext (by
    match a with
    | ⟨0, _⟩ => exact (mm4_r0 _ _).trans hk
    | ⟨1, _⟩ => exact mm4_r1 _ _)
  rw [el, er]

/-! ## Row vectors broadcast down a block, and columns broadcast across it -/

/-- A [1, 1024] row broadcast to [1024, 1024], at (p, j): the row's entry j. -/
theorem rowb_apply (v : FVec Ideal S1x1024 .f32) (p j : Fin 1024) :
    broadcastTo S1024x1024 (shapeCast S1x1024 v shapeCasts_S1x1024_S1x1024) broadcasts_S1x1024_S1024x1024 (ix2 p j) = v (ix2 (0 : Fin 1) j) := by
  rw [shapeCast_self]
  exact broadcastTo_1b_ab_apply v _ p j

/-- A [1, 10] row broadcast to [1024, 10], at (p, j): the row's entry j. -/
theorem rowb10_apply (v : FVec Ideal S1x10 .f32) (p : Fin 1024) (j : Fin 10) :
    broadcastTo S1024x10 (shapeCast S1x10 v shapeCasts_S1x10_S1x10) broadcasts_S1x10_S1024x10 (ix2 p j) = v (ix2 (0 : Fin 1) j) := by
  rw [shapeCast_self]
  exact broadcastTo_1b_ab_apply v _ p j

/-- A column [1024, 1] broadcast across the 10 logits, at (p, j): the column's entry p. -/
theorem colb1_apply (w : FVec Ideal S1024x1 .f32) (p : Fin 1024) (j : Fin 10) :
    broadcastTo S1024x10 w broadcasts_S1024x1_S1024x10 (ix2 p j) = w (ix2 p (0 : Fin 1)) := by
  refine broadcastTo_apply w broadcasts_S1024x1_S1024x10 (ix2 p j) (ix2 p (0 : Fin 1)) (fun ax => ?_)
  match ax with
  | ⟨0, _⟩ => rfl
  | ⟨1, _⟩ => rfl

/-- A per-row value [1024] cast to a column [1024, 1], at (p, 0): the row's value. -/
theorem colcast_apply (v : FVec Ideal S1024 .f32) (p : Fin 1024) :
    shapeCast S1024x1 v shapeCasts_S1024_S1024x1 (ix2 p (0 : Fin 1)) = v (ix1 p) := by
  refine shapeCast_apply v shapeCasts_S1024_S1024x1 (ix2 p (0 : Fin 1)) (ix1 p) ?_
  rw [Shape.rowMajor_val_two, Shape.rowMajor_val_one]
  show p.val = p.val * 1 + 0
  rw [Nat.mul_one, Nat.add_zero]

/-- The exponential and the logarithm of a vector, at an index. -/
theorem exp_apply {s : Shape} (v : FVec Ideal s .f32) (i : s.Idx) : exp v i = Ideal.exp (v i) := rfl
theorem log_apply {s : Shape} (v : FVec Ideal s .f32) (i : s.Idx) : log v i = Ideal.log (v i) := rfl

/-- A per-row value [1024] cast to a column [1024, 1] and broadcast across the 10 logits, at (p, j): the row's value. -/
theorem colb_apply (v : FVec Ideal S1024 .f32) (p : Fin 1024) (j : Fin 10) :
    broadcastTo S1024x10 (shapeCast S1024x1 v shapeCasts_S1024_S1024x1) broadcasts_S1024x1_S1024x10 (ix2 p j) = v (ix1 p) := by
  refine (broadcastTo_apply _ broadcasts_S1024x1_S1024x10 (ix2 p j) (ix2 p (0 : Fin 1)) (fun ax => ?_)).trans ?_
  · match ax with
    | ⟨0, _⟩ => rfl
    | ⟨1, _⟩ => rfl
  · refine shapeCast_apply v shapeCasts_S1024_S1024x1 (ix2 p (0 : Fin 1)) (ix1 p) ?_
    rw [Shape.rowMajor_val_two, Shape.rowMajor_val_one]
    show p.val = p.val * 1 + 0
    rw [Nat.mul_one, Nat.add_zero]

/-! ## The per-row reductions over the 10 logits -/

/-- The row maximum from −∞ at row p: the fold of `max` over the row's 10 entries. -/
theorem rowmax_apply (src : FVec Ideal S1024x10 .f32) (p : Fin 1024) :
    multiReduction .maximumf [1] S1024 src 0xFF800000#32 reduces_S1024x10_S1024 (.inl rfl) rfl (ix1 p)
      = (Finset.univ : Finset (Fin 10)).fold max (Ideal.ofBits .f32 0xFF800000#32) (fun k => src (ix2 p k)) := by
  refine (Ideal.multiReduction_maximumf_single src 0xFF800000#32 reduces_S1024x10_S1024 (.inl rfl) rfl (ix1 p)).trans ?_
  have e : (src ∘ reduces_S1024x10_S1024.lift (ix1 p)) = fun k : Fin 10 => src (ix2 p k) := by
    funext k
    refine congrArg src (funext fun a => ?_)
    match a with
    | ⟨0, _⟩ => rfl
    | ⟨1, _⟩ => rfl
  rw [e]
  rfl

/-- The row sum at row p: the sum of the row's 10 entries. -/
theorem rowsum_apply (src : FVec Ideal S1024x10 .f32) (p : Fin 1024) :
    multiReduction .add [1] S1024 src 0x00000000#32 reduces_S1024x10_S1024 (.inl rfl) rfl (ix1 p)
      = ∑ k : Fin 10, src (ix2 p k) := by
  refine (Ideal.multiReduction_add_single src 0x00000000#32 reduces_S1024x10_S1024 (.inl rfl) rfl (ix1 p)).trans ?_
  refine Finset.sum_congr rfl fun k _ => congrArg src (funext fun a => ?_)
  match a with
  | ⟨0, _⟩ => rfl
  | ⟨1, _⟩ => rfl

end Cert.KernelIdeal.RowOps

end
-- ==== Proof.KerPay.lean ====
/-
  The kernel body's three computed values, each read at one index of its block, as the row functions of the
  specification: for row p of the block, the second layer's pre-activation is the dense layer applied to the sign of
  the first hidden layer of row p; the third hidden layer (clipped) likewise from the second; and the stored value is
  the log-softmax of the 10 logits of row p. The scale and shift rows enter as they are loaded (folded form).
-/
import proofs.«179161_j77189152243989_1_alg».proof.Proof.KerOps
import proofs.«179161_j77189152243989_1_alg».proof.Proof.Gen.KernelIdeal.Frame
import proofs.«179161_j77189152243989_1_alg».proof.Proof.BnnSpec

noncomputable section

open scoped BigOperators

namespace Cert.KernelIdeal.RowValue

open Cert.KernelIdeal Cert.KernelIdeal.Gen Cert.KernelIdeal.RowOps Idealize.ShloMosaic Idealize.ShloMosaic.ValueIdx Cert.Bnn

/-- The kernel's `jnp.sign` term (1.0 with the sign bit, where the magnitude is positive; else the value itself),
    read at one element: the sign function. -/
theorem ksign_apply (x : FVec Ideal S1024x1024 .f32) (i : S1024x1024.Idx) :
    select (cmpf .ogt (absf x) (broadcast S1024x1024 (Scalar.ofBits .f32 0x00000000#32)))
        (select (cmpf .olt x (constant S1024x1024 .f32 0x00000000#32)) (constant S1024x1024 .f32 0xBF800000#32)
          (constant S1024x1024 .f32 0x3F800000#32)) x i
      = Ideal.sign (x i) :=
  Ideal.jnp_sign_eq_sign_f32 (x i)

/-- A hidden layer in the folded form, with the scale row `s` and the shift row `t` given: `clip (z · s + t)`. -/
def hidST {n : ℕ} (s t z : Fin n → EReal) (j : Fin n) : EReal := clip1 (z j * s j + t j)

/-- The first computed value (the second layer's pre-activation) at (p, j). -/
theorem pay2_apply (x0 : FVec Ideal S1024x784 .f32) (x1 : FVec Ideal S784x1024 .bf16) (x2 x3 x4 : FVec Ideal S1x1024 .f32)
    (x5 : FVec Ideal S1024x1024 .bf16) (x6 : FVec Ideal S1x1024 .f32) (p j : Fin 1024) :
    k0_pay2 (F := Ideal) x0 x1 x2 x3 x4 x5 x6 (ix2 p j)
      = lin (fun j q => x5 (ix2 q j)) (fun j => x6 (ix2 (0 : Fin 1) j))
          (fun q => Ideal.sign (hidST (fun q => x3 (ix2 (0 : Fin 1) q)) (fun q => x4 (ix2 (0 : Fin 1) q))
            (lin (fun q k => x1 (ix2 k q)) (fun q => x2 (ix2 (0 : Fin 1) q)) (fun k => x0 (ix2 p k))) q)) j := by
  unfold k0_pay2
  simp only [ValueIdx.addf_apply, ValueIdx.mulf_apply, ValueIdx.maximumf_apply, ValueIdx.minimumf_apply,
    ValueIdx.broadcast_apply, ValueIdx.truncf_apply, mm1_apply, mm2_apply, shapeCast_self, broadcastTo_1b_ab_apply, ksign_apply]
  rfl

/-- The second computed value (the third hidden layer, clipped) at (p, j), from the second layer's pre-activation. -/
theorem pay3_apply (v38 : FVec Ideal S1024x1024 .f32) (x7 x8 : FVec Ideal S1x1024 .f32) (x9 : FVec Ideal S1024x1024 .bf16)
    (x10 x11 x12 : FVec Ideal S1x1024 .f32) (p j : Fin 1024) :
    k0_pay3 (F := Ideal) v38 x7 x8 x9 x10 x11 x12 (ix2 p j)
      = hidST (fun j => x11 (ix2 (0 : Fin 1) j)) (fun j => x12 (ix2 (0 : Fin 1) j))
          (lin (fun j q => x9 (ix2 q j)) (fun j => x10 (ix2 (0 : Fin 1) j))
            (fun q => Ideal.sign (hidST (fun q => x7 (ix2 (0 : Fin 1) q)) (fun q => x8 (ix2 (0 : Fin 1) q))
              (fun q => v38 (ix2 p q)) q))) j := by
  unfold k0_pay3
  simp only [ValueIdx.addf_apply, ValueIdx.mulf_apply, ValueIdx.maximumf_apply, ValueIdx.minimumf_apply,
    ValueIdx.broadcast_apply, ValueIdx.truncf_apply, mm2_apply, shapeCast_self, broadcastTo_1b_ab_apply, ksign_apply]
  rfl

/-- The stored value at (p, q): the log-softmax of row p's 10 logits. -/
theorem pay1_apply (v81 : FVec Ideal S1024x1024 .bf16) (x13 : FVec Ideal S1024x10 .bf16) (x14 : FVec Ideal S1x10 .f32)
    (p : Fin 1024) (q : Fin 10) :
    k0_pay1 (F := Ideal) v81 x13 x14 (ix2 p q)
      = logSoftmax (lin (fun j k => x13 (ix2 k j)) (fun j => x14 (ix2 (0 : Fin 1) j)) (fun k => v81 (ix2 p k))) q := by
  unfold k0_pay1
  simp only [ValueIdx.addf_apply, ValueIdx.subf_apply, ValueIdx.maximumf_apply, ValueIdx.broadcast_apply, mm4_apply,
    shapeCast_self, broadcastTo_1b_ab_apply, colb1_apply, colcast_apply, exp_apply, log_apply]
  rw [rowmax_apply, rowsum_apply]
  simp only [ValueIdx.addf_apply, ValueIdx.subf_apply, ValueIdx.maximumf_apply, ValueIdx.broadcast_apply, mm4_apply,
    shapeCast_self, broadcastTo_1b_ab_apply, colb1_apply, colcast_apply, exp_apply, log_apply]
  rw [rowmax_apply]
  simp only [ValueIdx.addf_apply, mm4_apply, broadcastTo_1b_ab_apply]
  rfl

/-! ## The whole body: what one grid point stores, row by row of its block -/

/-- The zero offset of a whole-block rectangle. -/
theorem hz : (![0, 0] : Fin 2 → Nat) = fun _ => 0 := funext fun a => by fin_cases a <;> rfl

/-- Row p of what the body computes from its fifteen loaded blocks: the folded network of the specification, with
    the weights read transposed from their blocks and the bias, scale and shift rows read from theirs. -/
def blockRow (x0 : FVec Ideal S1024x784 .f32) (x1 : FVec Ideal S784x1024 .bf16) (x2 x3 x4 : FVec Ideal S1x1024 .f32)
    (x5 : FVec Ideal S1024x1024 .bf16) (x6 x7 x8 : FVec Ideal S1x1024 .f32) (x9 : FVec Ideal S1024x1024 .bf16)
    (x10 x11 x12 : FVec Ideal S1x1024 .f32) (x13 : FVec Ideal S1024x10 .bf16) (x14 : FVec Ideal S1x10 .f32)
    (p : Fin 1024) : Fin 10 → EReal :=
  logSoftmax (lin (fun j k => x13 (ix2 k j)) (fun j => x14 (ix2 (0 : Fin 1) j))
    (hidST (fun j => x11 (ix2 (0 : Fin 1) j)) (fun j => x12 (ix2 (0 : Fin 1) j))
      (lin (fun j q => x9 (ix2 q j)) (fun j => x10 (ix2 (0 : Fin 1) j))
        (fun q => Ideal.sign (hidST (fun q => x7 (ix2 (0 : Fin 1) q)) (fun q => x8 (ix2 (0 : Fin 1) q))
          (lin (fun j q => x5 (ix2 q j)) (fun j => x6 (ix2 (0 : Fin 1) j))
            (fun q => Ideal.sign (hidST (fun q => x3 (ix2 (0 : Fin 1) q)) (fun q => x4 (ix2 (0 : Fin 1) q))
              (lin (fun q k => x1 (ix2 k q)) (fun q => x2 (ix2 (0 : Fin 1) q)) (fun k => x0 (ix2 p k))) q))) q)))))

/-- The body's one store covers its output block, and its value at (p, q) is `blockRow … p q`. -/
theorem out_row (x0 : FVec Ideal S1024x784 .f32) (x1 : FVec Ideal S784x1024 .bf16) (x2 x3 x4 : FVec Ideal S1x1024 .f32)
    (x5 : FVec Ideal S1024x1024 .bf16) (x6 x7 x8 : FVec Ideal S1x1024 .f32) (x9 : FVec Ideal S1024x1024 .bf16)
    (x10 x11 x12 : FVec Ideal S1x1024 .f32) (x13 : FVec Ideal S1024x10 .bf16) (x14 : FVec Ideal S1x10 .f32)
    (p : Fin 1024) (q : Fin 10) :
    out0_15 (F := Ideal) x0 x1 x2 x3 x4 x5 x6 x7 x8 x9 x10 x11 x12 x13 x14 (ix2 p q)
      = blockRow x0 x1 x2 x3 x4 x5 x6 x7 x8 x9 x10 x11 x12 x13 x14 p q := by
  unfold out0_15
  rw [View.canon_unit_zero hz]
  simp only [View.ld_unit_zero (S := S1024x784) hz, View.ld_unit_zero (S := S784x1024) hz, View.ld_unit_zero (S := S1x1024) hz,
    View.ld_unit_zero (S := S1024x1024) hz, View.ld_unit_zero (S := S1024x10) hz, View.ld_unit_zero (S := S1x10) hz]
  rw [pay1_apply]
  simp only [pay3_apply, pay2_apply]
  rfl

end Cert.KernelIdeal.RowValue

end
-- ==== Proof.KerHost.lean ====
import proofs.«179161_j77189152243989_1_alg».proof.Proof.Gen.KernelIdeal.Frame
import proofs.«179161_j77189152243989_1_alg».proof.Proof.BnnSpec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

/-!
# The arrays the kernel's call is given, read at an index

Before its one call the program computes, on the host, fourteen operand arrays from its arguments: the signs of three
weight matrices and a fourth matrix, each transposed; four bias vectors given a leading unit axis; and, for each of
the three normalisations, the per-feature scale `γ · rsqrt(σ² + ε)` and shift `β − μ · scale`, each given a leading
unit axis. Each is first equated, whole, with the term of the operations that compute it, and then read at an index.
Narrowing to bf16 is the identity on the extended reals.
-/

noncomputable section

namespace Cert.KernelIdeal.HostValue

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (c : Dev nD)

/-- `%2` whole: the sign of argument 1, transposed, narrowed to bf16 (the identity on extended reals). -/
theorem V_v2_eq : (Gen.V (F := Ideal) m c main_v2 : S784x1024.Idx → EReal)
    = truncf (F := Ideal) .bf16 (transpose S784x1024 [1, 0] (Host.sign (F := Ideal) (φ := .f32) (m ((c : Thread nD τ).loc main_arg1) : S1024x784.Idx → EReal)) transposes_S1024x784_S784x1024_1_0) bitsLt_bf16_f32 := by
  dsimp only [Gen.V, Gen.hostOps0]; after_results <;> rfl

/-- `%2` at `(k, j)` is the sign of argument 1 at `(j, k)`. -/
theorem V_v2_at (k : Fin 784) (j : Fin 1024) :
    (Gen.V (F := Ideal) m c main_v2 : S784x1024.Idx → EReal) (ix2 k j) = Ideal.sign ((m ((c : Thread nD τ).loc main_arg1) : S1024x784.Idx → EReal) (ix2 j k)) := by
  rw [V_v2_eq m c, truncf_apply]
  exact transpose_ix2_apply _ _ k j

/-- `%5` whole: the sign of argument 3, transposed, narrowed to bf16 (the identity on extended reals). -/
theorem V_v5_eq : (Gen.V (F := Ideal) m c main_v5 : S1024x1024.Idx → EReal)
    = truncf (F := Ideal) .bf16 (transpose S1024x1024 [1, 0] (Host.sign (F := Ideal) (φ := .f32) (m ((c : Thread nD τ).loc main_arg3) : S1024x1024.Idx → EReal)) transposes_S1024x1024_S1024x1024_1_0) bitsLt_bf16_f32 := by
  dsimp only [Gen.V, Gen.hostOps0]; after_results <;> rfl

/-- `%5` at `(k, j)` is the sign of argument 3 at `(j, k)`. -/
theorem V_v5_at (k : Fin 1024) (j : Fin 1024) :
    (Gen.V (F := Ideal) m c main_v5 : S1024x1024.Idx → EReal) (ix2 k j) = Ideal.sign ((m ((c : Thread nD τ).loc main_arg3) : S1024x1024.Idx → EReal) (ix2 j k)) := by
  rw [V_v5_eq m c, truncf_apply]
  exact transpose_ix2_apply _ _ k j

/-- `%8` whole: the sign of argument 5, transposed, narrowed to bf16 (the identity on extended reals). -/
theorem V_v8_eq : (Gen.V (F := Ideal) m c main_v8 : S1024x1024.Idx → EReal)
    = truncf (F := Ideal) .bf16 (transpose S1024x1024 [1, 0] (Host.sign (F := Ideal) (φ := .f32) (m ((c : Thread nD τ).loc main_arg5) : S1024x1024.Idx → EReal)) transposes_S1024x1024_S1024x1024_1_0) bitsLt_bf16_f32 := by
  dsimp only [Gen.V, Gen.hostOps0]; after_results <;> rfl

/-- `%8` at `(k, j)` is the sign of argument 5 at `(j, k)`. -/
theorem V_v8_at (k : Fin 1024) (j : Fin 1024) :
    (Gen.V (F := Ideal) m c main_v8 : S1024x1024.Idx → EReal) (ix2 k j) = Ideal.sign ((m ((c : Thread nD τ).loc main_arg5) : S1024x1024.Idx → EReal) (ix2 j k)) := by
  rw [V_v8_eq m c, truncf_apply]
  exact transpose_ix2_apply _ _ k j

/-- `%10` whole: argument 7 transposed, narrowed to bf16 (the identity on extended reals). -/
theorem V_v10_eq : (Gen.V (F := Ideal) m c main_v10 : S1024x10.Idx → EReal)
    = truncf (F := Ideal) .bf16 (transpose S1024x10 [1, 0] (m ((c : Thread nD τ).loc main_arg7) : S10x1024.Idx → EReal) transposes_S10x1024_S1024x10_1_0) bitsLt_bf16_f32 := by
  dsimp only [Gen.V, Gen.hostOps0]; after_results <;> rfl

/-- `%10` at `(k, j)` is argument 7 at `(j, k)`. -/
theorem V_v10_at (k : Fin 1024) (j : Fin 10) :
    (Gen.V (F := Ideal) m c main_v10 : S1024x10.Idx → EReal) (ix2 k j) = (m ((c : Thread nD τ).loc main_arg7) : S10x1024.Idx → EReal) (ix2 j k) := by
  rw [V_v10_eq m c, truncf_apply]
  exact transpose_ix2_apply _ _ k j

/-- `%29` whole: argument 2 with a leading unit axis. -/
theorem V_v29_eq : (Gen.V (F := Ideal) m c main_v29 : S1x1024.Idx → EReal) = shapeCast S1x1024 (m ((c : Thread nD τ).loc main_arg2) : S1024.Idx → EReal) shapeCasts_S1024_S1x1024 := by
  dsimp only [Gen.V, Gen.hostOps0]; after_results <;> rfl

/-- `%29` at `(0, j)` is argument 2 at `j`. -/
theorem V_v29_at (j : Fin 1024) :
    (Gen.V (F := Ideal) m c main_v29 : S1x1024.Idx → EReal) (ix2 (0 : Fin 1) j) = (m ((c : Thread nD τ).loc main_arg2) : S1024.Idx → EReal) (ix1 j) := by
  rw [V_v29_eq m c]
  exact shapeCast_a_1a_apply _ _ 0 j

/-- `%32` whole: argument 4 with a leading unit axis. -/
theorem V_v32_eq : (Gen.V (F := Ideal) m c main_v32 : S1x1024.Idx → EReal) = shapeCast S1x1024 (m ((c : Thread nD τ).loc main_arg4) : S1024.Idx → EReal) shapeCasts_S1024_S1x1024 := by
  dsimp only [Gen.V, Gen.hostOps0]; after_results <;> rfl

/-- `%32` at `(0, j)` is argument 4 at `j`. -/
theorem V_v32_at (j : Fin 1024) :
    (Gen.V (F := Ideal) m c main_v32 : S1x1024.Idx → EReal) (ix2 (0 : Fin 1) j) = (m ((c : Thread nD τ).loc main_arg4) : S1024.Idx → EReal) (ix1 j) := by
  rw [V_v32_eq m c]
  exact shapeCast_a_1a_apply _ _ 0 j

/-- `%35` whole: argument 6 with a leading unit axis. -/
theorem V_v35_eq : (Gen.V (F := Ideal) m c main_v35 : S1x1024.Idx → EReal) = shapeCast S1x1024 (m ((c : Thread nD τ).loc main_arg6) : S1024.Idx → EReal) shapeCasts_S1024_S1x1024 := by
  dsimp only [Gen.V, Gen.hostOps0]; after_results <;> rfl

/-- `%35` at `(0, j)` is argument 6 at `j`. -/
theorem V_v35_at (j : Fin 1024) :
    (Gen.V (F := Ideal) m c main_v35 : S1x1024.Idx → EReal) (ix2 (0 : Fin 1) j) = (m ((c : Thread nD τ).loc main_arg6) : S1024.Idx → EReal) (ix1 j) := by
  rw [V_v35_eq m c]
  exact shapeCast_a_1a_apply _ _ 0 j

/-- `%38` whole: argument 8 with a leading unit axis. -/
theorem V_v38_eq : (Gen.V (F := Ideal) m c main_v38 : S1x10.Idx → EReal) = shapeCast S1x10 (m ((c : Thread nD τ).loc main_arg8) : S10.Idx → EReal) shapeCasts_S10_S1x10 := by
  dsimp only [Gen.V, Gen.hostOps0]; after_results <;> rfl

/-- `%38` at `(0, j)` is argument 8 at `j`. -/
theorem V_v38_at (j : Fin 10) :
    (Gen.V (F := Ideal) m c main_v38 : S1x10.Idx → EReal) (ix2 (0 : Fin 1) j) = (m ((c : Thread nD τ).loc main_arg8) : S10.Idx → EReal) (ix1 j) := by
  rw [V_v38_eq m c]
  exact shapeCast_a_1a_apply _ _ 0 j

/-- `%30` whole: `γ · rsqrt(σ² + ε)` over arguments 9 and 12, with a leading unit axis. -/
theorem V_v30_eq : (Gen.V (F := Ideal) m c main_v30 : S1x1024.Idx → EReal)
    = shapeCast S1x1024 (mulf (F := Ideal) (φ := .f32) (m ((c : Thread nD τ).loc main_arg9) : S1024.Idx → EReal) (Host.rsqrt (F := Ideal) (φ := .f32) (addf (F := Ideal) (φ := .f32) (m ((c : Thread nD τ).loc main_arg12) : S1024.Idx → EReal) (broadcastInDim S1024 ![] bcast_S_S1024 (constant (F := Ideal) S_ .f32 0x3727C5AC#32))))) shapeCasts_S1024_S1x1024 := by
  dsimp only [Gen.V, Gen.hostOps0]; after_results_simp <;> rfl

/-- `%30` at `(0, j)` is the folded scale of arguments 9 (γ) and 12 (σ²) at `j`. -/
theorem V_v30_at (j : Fin 1024) :
    (Gen.V (F := Ideal) m c main_v30 : S1x1024.Idx → EReal) (ix2 (0 : Fin 1) j)
      = Cert.Bnn.scale (fun j => (m ((c : Thread nD τ).loc main_arg9) : S1024.Idx → EReal) (ix1 j)) (fun j => (m ((c : Thread nD τ).loc main_arg12) : S1024.Idx → EReal) (ix1 j)) j := by
  rw [V_v30_eq m c]
  refine (shapeCast_a_1a_apply _ _ 0 j).trans ?_
  unfold Cert.Bnn.scale Cert.Bnn.rstd
  rfl

/-- `%31` whole: `β − μ · s` over arguments 10, 11 and the scale `s` of arguments 9 and 12, with a leading unit axis. -/
theorem V_v31_eq : (Gen.V (F := Ideal) m c main_v31 : S1x1024.Idx → EReal)
    = shapeCast S1x1024 (subf (F := Ideal) (φ := .f32) (m ((c : Thread nD τ).loc main_arg10) : S1024.Idx → EReal) (mulf (F := Ideal) (φ := .f32) (m ((c : Thread nD τ).loc main_arg11) : S1024.Idx → EReal) (mulf (F := Ideal) (φ := .f32) (m ((c : Thread nD τ).loc main_arg9) : S1024.Idx → EReal) (Host.rsqrt (F := Ideal) (φ := .f32) (addf (F := Ideal) (φ := .f32) (m ((c : Thread nD τ).loc main_arg12) : S1024.Idx → EReal) (broadcastInDim S1024 ![] bcast_S_S1024 (constant (F := Ideal) S_ .f32 0x3727C5AC#32))))))) shapeCasts_S1024_S1x1024 := by
  dsimp only [Gen.V, Gen.hostOps0]; after_results_simp <;> rfl

/-- `%31` at `(0, j)` is the folded shift of arguments 10 (β), 11 (μ) and the scale of arguments 9, 12 at `j`. -/
theorem V_v31_at (j : Fin 1024) :
    (Gen.V (F := Ideal) m c main_v31 : S1x1024.Idx → EReal) (ix2 (0 : Fin 1) j)
      = Cert.Bnn.shift (fun j => (m ((c : Thread nD τ).loc main_arg10) : S1024.Idx → EReal) (ix1 j)) (fun j => (m ((c : Thread nD τ).loc main_arg11) : S1024.Idx → EReal) (ix1 j))
          (Cert.Bnn.scale (fun j => (m ((c : Thread nD τ).loc main_arg9) : S1024.Idx → EReal) (ix1 j)) (fun j => (m ((c : Thread nD τ).loc main_arg12) : S1024.Idx → EReal) (ix1 j))) j := by
  rw [V_v31_eq m c]
  refine (shapeCast_a_1a_apply _ _ 0 j).trans ?_
  unfold Cert.Bnn.shift Cert.Bnn.scale Cert.Bnn.rstd
  rfl

/-- `%33` whole: `γ · rsqrt(σ² + ε)` over arguments 13 and 16, with a leading unit axis. -/
theorem V_v33_eq : (Gen.V (F := Ideal) m c main_v33 : S1x1024.Idx → EReal)
    = shapeCast S1x1024 (mulf (F := Ideal) (φ := .f32) (m ((c : Thread nD τ).loc main_arg13) : S1024.Idx → EReal) (Host.rsqrt (F := Ideal) (φ := .f32) (addf (F := Ideal) (φ := .f32) (m ((c : Thread nD τ).loc main_arg16) : S1024.Idx → EReal) (broadcastInDim S1024 ![] bcast_S_S1024 (constant (F := Ideal) S_ .f32 0x3727C5AC#32))))) shapeCasts_S1024_S1x1024 := by
  dsimp only [Gen.V, Gen.hostOps0]; after_results_simp <;> rfl

/-- `%33` at `(0, j)` is the folded scale of arguments 13 (γ) and 16 (σ²) at `j`. -/
theorem V_v33_at (j : Fin 1024) :
    (Gen.V (F := Ideal) m c main_v33 : S1x1024.Idx → EReal) (ix2 (0 : Fin 1) j)
      = Cert.Bnn.scale (fun j => (m ((c : Thread nD τ).loc main_arg13) : S1024.Idx → EReal) (ix1 j)) (fun j => (m ((c : Thread nD τ).loc main_arg16) : S1024.Idx → EReal) (ix1 j)) j := by
  rw [V_v33_eq m c]
  refine (shapeCast_a_1a_apply _ _ 0 j).trans ?_
  unfold Cert.Bnn.scale Cert.Bnn.rstd
  rfl

/-- `%34` whole: `β − μ · s` over arguments 14, 15 and the scale `s` of arguments 13 and 16, with a leading unit axis. -/
theorem V_v34_eq : (Gen.V (F := Ideal) m c main_v34 : S1x1024.Idx → EReal)
    = shapeCast S1x1024 (subf (F := Ideal) (φ := .f32) (m ((c : Thread nD τ).loc main_arg14) : S1024.Idx → EReal) (mulf (F := Ideal) (φ := .f32) (m ((c : Thread nD τ).loc main_arg15) : S1024.Idx → EReal) (mulf (F := Ideal) (φ := .f32) (m ((c : Thread nD τ).loc main_arg13) : S1024.Idx → EReal) (Host.rsqrt (F := Ideal) (φ := .f32) (addf (F := Ideal) (φ := .f32) (m ((c : Thread nD τ).loc main_arg16) : S1024.Idx → EReal) (broadcastInDim S1024 ![] bcast_S_S1024 (constant (F := Ideal) S_ .f32 0x3727C5AC#32))))))) shapeCasts_S1024_S1x1024 := by
  dsimp only [Gen.V, Gen.hostOps0]; after_results_simp <;> rfl

/-- `%34` at `(0, j)` is the folded shift of arguments 14 (β), 15 (μ) and the scale of arguments 13, 16 at `j`. -/
theorem V_v34_at (j : Fin 1024) :
    (Gen.V (F := Ideal) m c main_v34 : S1x1024.Idx → EReal) (ix2 (0 : Fin 1) j)
      = Cert.Bnn.shift (fun j => (m ((c : Thread nD τ).loc main_arg14) : S1024.Idx → EReal) (ix1 j)) (fun j => (m ((c : Thread nD τ).loc main_arg15) : S1024.Idx → EReal) (ix1 j))
          (Cert.Bnn.scale (fun j => (m ((c : Thread nD τ).loc main_arg13) : S1024.Idx → EReal) (ix1 j)) (fun j => (m ((c : Thread nD τ).loc main_arg16) : S1024.Idx → EReal) (ix1 j))) j := by
  rw [V_v34_eq m c]
  refine (shapeCast_a_1a_apply _ _ 0 j).trans ?_
  unfold Cert.Bnn.shift Cert.Bnn.scale Cert.Bnn.rstd
  rfl

/-- `%36` whole: `γ · rsqrt(σ² + ε)` over arguments 17 and 20, with a leading unit axis. -/
theorem V_v36_eq : (Gen.V (F := Ideal) m c main_v36 : S1x1024.Idx → EReal)
    = shapeCast S1x1024 (mulf (F := Ideal) (φ := .f32) (m ((c : Thread nD τ).loc main_arg17) : S1024.Idx → EReal) (Host.rsqrt (F := Ideal) (φ := .f32) (addf (F := Ideal) (φ := .f32) (m ((c : Thread nD τ).loc main_arg20) : S1024.Idx → EReal) (broadcastInDim S1024 ![] bcast_S_S1024 (constant (F := Ideal) S_ .f32 0x3727C5AC#32))))) shapeCasts_S1024_S1x1024 := by
  dsimp only [Gen.V, Gen.hostOps0]; after_results_simp <;> rfl

/-- `%36` at `(0, j)` is the folded scale of arguments 17 (γ) and 20 (σ²) at `j`. -/
theorem V_v36_at (j : Fin 1024) :
    (Gen.V (F := Ideal) m c main_v36 : S1x1024.Idx → EReal) (ix2 (0 : Fin 1) j)
      = Cert.Bnn.scale (fun j => (m ((c : Thread nD τ).loc main_arg17) : S1024.Idx → EReal) (ix1 j)) (fun j => (m ((c : Thread nD τ).loc main_arg20) : S1024.Idx → EReal) (ix1 j)) j := by
  rw [V_v36_eq m c]
  refine (shapeCast_a_1a_apply _ _ 0 j).trans ?_
  unfold Cert.Bnn.scale Cert.Bnn.rstd
  rfl

/-- `%37` whole: `β − μ · s` over arguments 18, 19 and the scale `s` of arguments 17 and 20, with a leading unit axis. -/
theorem V_v37_eq : (Gen.V (F := Ideal) m c main_v37 : S1x1024.Idx → EReal)
    = shapeCast S1x1024 (subf (F := Ideal) (φ := .f32) (m ((c : Thread nD τ).loc main_arg18) : S1024.Idx → EReal) (mulf (F := Ideal) (φ := .f32) (m ((c : Thread nD τ).loc main_arg19) : S1024.Idx → EReal) (mulf (F := Ideal) (φ := .f32) (m ((c : Thread nD τ).loc main_arg17) : S1024.Idx → EReal) (Host.rsqrt (F := Ideal) (φ := .f32) (addf (F := Ideal) (φ := .f32) (m ((c : Thread nD τ).loc main_arg20) : S1024.Idx → EReal) (broadcastInDim S1024 ![] bcast_S_S1024 (constant (F := Ideal) S_ .f32 0x3727C5AC#32))))))) shapeCasts_S1024_S1x1024 := by
  dsimp only [Gen.V, Gen.hostOps0]; after_results_simp <;> rfl

/-- `%37` at `(0, j)` is the folded shift of arguments 18 (β), 19 (μ) and the scale of arguments 17, 20 at `j`. -/
theorem V_v37_at (j : Fin 1024) :
    (Gen.V (F := Ideal) m c main_v37 : S1x1024.Idx → EReal) (ix2 (0 : Fin 1) j)
      = Cert.Bnn.shift (fun j => (m ((c : Thread nD τ).loc main_arg18) : S1024.Idx → EReal) (ix1 j)) (fun j => (m ((c : Thread nD τ).loc main_arg19) : S1024.Idx → EReal) (ix1 j))
          (Cert.Bnn.scale (fun j => (m ((c : Thread nD τ).loc main_arg17) : S1024.Idx → EReal) (ix1 j)) (fun j => (m ((c : Thread nD τ).loc main_arg20) : S1024.Idx → EReal) (ix1 j))) j := by
  rw [V_v37_eq m c]
  refine (shapeCast_a_1a_apply _ _ 0 j).trans ?_
  unfold Cert.Bnn.shift Cert.Bnn.scale Cert.Bnn.rstd
  rfl

end Cert.KernelIdeal.HostValue

end
-- ==== Proof.KerFinal.lean ====
/-
  From blocks to the array. Grid point t of the 16 handles rows 1024·t … 1024·t + 1023 of the batch: its input block
  is those rows of x, every other operand is read whole (the transposed sign weights, the bias rows, and the folded
  scale and shift rows the host computed), and it stores those rows of the result. Row p of the stored block is the
  specification's folded network of row 1024·t + p; the 16 blocks tile the [16384, 10] result.
-/
import proofs.«179161_j77189152243989_1_alg».proof.Proof.Gen.KernelIdeal.Value
import proofs.«179161_j77189152243989_1_alg».proof.Proof.KerPay
import proofs.«179161_j77189152243989_1_alg».proof.Proof.KerHost

noncomputable section

open scoped BigOperators

namespace Cert.KernelIdeal.NetValue

open Cert.KernelIdeal Cert.KernelIdeal.Gen Cert.KernelIdeal.RowOps Cert.KernelIdeal.RowValue Cert.KernelIdeal.HostValue
open Idealize.ShloMosaic Idealize.ShloMosaic.TcCoe Idealize.SL.Sem Idealize.ShloMosaic.ValueIdx Cert.Bnn
open Idealize.ShloMosaic.Pipeline (Dat)

variable (m : (ℓ : Loc nD τ sig) → Buf (Elt Ideal) ℓ) (ρ : Dev nD → PrngReg)

/-! ## The folded network with every layer's rows given -/

/-- The folded network for one row, with each layer's weights, bias, scale and shift given as functions. -/
def rowST (a : Fin 784 → EReal) (W1 : Fin 1024 → Fin 784 → EReal) (b1 s1 t1 : Fin 1024 → EReal)
    (W2 : Fin 1024 → Fin 1024 → EReal) (b2 s2 t2 : Fin 1024 → EReal)
    (W3 : Fin 1024 → Fin 1024 → EReal) (b3 s3 t3 : Fin 1024 → EReal)
    (W4 : Fin 10 → Fin 1024 → EReal) (b4 : Fin 10 → EReal) : Fin 10 → EReal :=
  logSoftmax (lin W4 b4 (hidST s3 t3 (lin W3 b3 (fun q => Ideal.sign (hidST s2 t2
    (lin W2 b2 (fun q => Ideal.sign (hidST s1 t1 (lin W1 b1 a) q))) q)))))

theorem blockRow_eq (x0 : FVec Ideal S1024x784 .f32) (x1 : FVec Ideal S784x1024 .bf16) (x2 x3 x4 : FVec Ideal S1x1024 .f32)
    (x5 : FVec Ideal S1024x1024 .bf16) (x6 x7 x8 : FVec Ideal S1x1024 .f32) (x9 : FVec Ideal S1024x1024 .bf16)
    (x10 x11 x12 : FVec Ideal S1x1024 .f32) (x13 : FVec Ideal S1024x10 .bf16) (x14 : FVec Ideal S1x10 .f32) (p : Fin 1024) :
    blockRow x0 x1 x2 x3 x4 x5 x6 x7 x8 x9 x10 x11 x12 x13 x14 p
      = rowST (fun k => x0 (ix2 p k)) (fun q k => x1 (ix2 k q)) (fun j => x2 (ix2 (0 : Fin 1) j)) (fun j => x3 (ix2 (0 : Fin 1) j))
          (fun j => x4 (ix2 (0 : Fin 1) j)) (fun j q => x5 (ix2 q j)) (fun j => x6 (ix2 (0 : Fin 1) j)) (fun j => x7 (ix2 (0 : Fin 1) j))
          (fun j => x8 (ix2 (0 : Fin 1) j)) (fun j q => x9 (ix2 q j)) (fun j => x10 (ix2 (0 : Fin 1) j)) (fun j => x11 (ix2 (0 : Fin 1) j))
          (fun j => x12 (ix2 (0 : Fin 1) j)) (fun j k => x13 (ix2 k j)) (fun j => x14 (ix2 (0 : Fin 1) j)) := rfl

/-- The specification's folded row function is `rowST` of the sign weights and the folded scale and shift rows. -/
theorem rowFolded_eq (P : Params) (a : Fin 784 → EReal) :
    rowFolded P a = rowST a (fun j q => Ideal.sign (P.w1 j q)) P.b1 (scale P.g1 P.v1) (shift P.be1 P.m1 (scale P.g1 P.v1))
      (fun j q => Ideal.sign (P.w2 j q)) P.b2 (scale P.g2 P.v2) (shift P.be2 P.m2 (scale P.g2 P.v2))
      (fun j q => Ideal.sign (P.w3 j q)) P.b3 (scale P.g3 P.v3) (shift P.be3 P.m3 (scale P.g3 P.v3)) P.w4 P.b4 := rfl

/-! ## The printed index maps, decided over the 16 grid points -/

theorem idx_0 : ∀ t : Fin cfg0.N, win0_0.index t (0 : Fin 2) = t.val ∧ win0_0.index t (1 : Fin 2) = 0 :=
  (by decide +kernel : ∀ t : Fin grid0.N, _)
theorem idx_15 : ∀ t : Fin cfg0.N, win0_15.index t (0 : Fin 2) = t.val ∧ win0_15.index t (1 : Fin 2) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 2) = 0 ∧ win0_12.index t (1 : Fin 2) = 0 :=
  (by decide +kernel : ∀ t : Fin grid0.N, _)
theorem idx_13 : ∀ t : Fin cfg0.N, win0_13.index t (0 : Fin 2) = 0 ∧ win0_13.index t (1 : Fin 2) = 0 :=
  (by decide +kernel : ∀ t : Fin grid0.N, _)
theorem idx_14 : ∀ t : Fin cfg0.N, win0_14.index t (0 : Fin 2) = 0 ∧ win0_14.index t (1 : Fin 2) = 0 :=
  (by decide +kernel : ∀ t : Fin grid0.N, _)

/-- Every block row of the result is some grid point's. -/
theorem idx_onto : ∀ q0 : Fin 16, ∃ t : Fin cfg0.N, win0_15.index t = ![q0.val, 0] :=
  (by decide +kernel : ∀ q0 : Fin 16, ∃ t : Fin grid0.N, win0_15.index t = ![q0.val, 0])

/-- The batch row that row p of grid point t's block is: 1024·t + p. -/
def rowAt (t : Fin cfg0.N) (p : Fin 1024) : Fin 16384 :=
  ⟨t.val * 1024 + p.val, by have h := t.isLt; have hN : cfg0.N = 16 := N_0; have hp := p.isLt; omega⟩

/-! ## Where each block's entries sit in its array -/

theorem emb_0 (t : Fin cfg0.N) (p : Fin 1024) (k : Fin 784) : ((cfg0.win 0).blk t).view.emb (ix2 p k) = ix2 (rowAt t p) k := by
  obtain ⟨e0, e1⟩ := idx_0 t
  funext a; apply Fin.ext
  match a with
  | ⟨0, _⟩ => show win0_0.index t (0 : Fin 2) * 1024 + 1 * p.val = t.val * 1024 + p.val; omega
  | ⟨1, _⟩ => show win0_0.index t (1 : Fin 2) * 784 + 1 * k.val = k.val; omega
theorem emb_15 (t : Fin cfg0.N) (p : Fin 1024) (q : Fin 10) : ((cfg0.win 15).blk t).view.emb (ix2 p q) = ix2 (rowAt t p) q := by
  obtain ⟨e0, e1⟩ := idx_15 t
  funext a; apply Fin.ext
  match a with
  | ⟨0, _⟩ => show win0_15.index t (0 : Fin 2) * 1024 + 1 * p.val = t.val * 1024 + p.val; omega
  | ⟨1, _⟩ => show win0_15.index t (1 : Fin 2) * 10 + 1 * q.val = q.val; omega
theorem emb_1 (t : Fin cfg0.N) (u : Fin 784) (v : Fin 1024) : ((cfg0.win 1).blk t).view.emb (ix2 u v) = ix2 u v := by
  obtain ⟨e0, e1⟩ := idx_1 t
  funext a; apply Fin.ext
  match a with
  | ⟨0, _⟩ => show win0_1.index t (0 : Fin 2) * 784 + 1 * u.val = u.val; omega
  | ⟨1, _⟩ => show win0_1.index t (1 : Fin 2) * 1024 + 1 * v.val = v.val; omega
theorem emb_2 (t : Fin cfg0.N) (u : Fin 1) (v : Fin 1024) : ((cfg0.win 2).blk t).view.emb (ix2 u v) = ix2 u v := by
  obtain ⟨e0, e1⟩ := idx_2 t
  funext a; apply Fin.ext
  match a with
  | ⟨0, _⟩ => show win0_2.index t (0 : Fin 2) * 1 + 1 * u.val = u.val; omega
  | ⟨1, _⟩ => show win0_2.index t (1 : Fin 2) * 1024 + 1 * v.val = v.val; omega
theorem emb_3 (t : Fin cfg0.N) (u : Fin 1) (v : Fin 1024) : ((cfg0.win 3).blk t).view.emb (ix2 u v) = ix2 u v := by
  obtain ⟨e0, e1⟩ := idx_3 t
  funext a; apply Fin.ext
  match a with
  | ⟨0, _⟩ => show win0_3.index t (0 : Fin 2) * 1 + 1 * u.val = u.val; omega
  | ⟨1, _⟩ => show win0_3.index t (1 : Fin 2) * 1024 + 1 * v.val = v.val; omega
theorem emb_4 (t : Fin cfg0.N) (u : Fin 1) (v : Fin 1024) : ((cfg0.win 4).blk t).view.emb (ix2 u v) = ix2 u v := by
  obtain ⟨e0, e1⟩ := idx_4 t
  funext a; apply Fin.ext
  match a with
  | ⟨0, _⟩ => show win0_4.index t (0 : Fin 2) * 1 + 1 * u.val = u.val; omega
  | ⟨1, _⟩ => show win0_4.index t (1 : Fin 2) * 1024 + 1 * v.val = v.val; omega
theorem emb_5 (t : Fin cfg0.N) (u : Fin 1024) (v : Fin 1024) : ((cfg0.win 5).blk t).view.emb (ix2 u v) = ix2 u v := by
  obtain ⟨e0, e1⟩ := idx_5 t
  funext a; apply Fin.ext
  match a with
  | ⟨0, _⟩ => show win0_5.index t (0 : Fin 2) * 1024 + 1 * u.val = u.val; omega
  | ⟨1, _⟩ => show win0_5.index t (1 : Fin 2) * 1024 + 1 * v.val = v.val; omega
theorem emb_6 (t : Fin cfg0.N) (u : Fin 1) (v : Fin 1024) : ((cfg0.win 6).blk t).view.emb (ix2 u v) = ix2 u v := by
  obtain ⟨e0, e1⟩ := idx_6 t
  funext a; apply Fin.ext
  match a with
  | ⟨0, _⟩ => show win0_6.index t (0 : Fin 2) * 1 + 1 * u.val = u.val; omega
  | ⟨1, _⟩ => show win0_6.index t (1 : Fin 2) * 1024 + 1 * v.val = v.val; omega
theorem emb_7 (t : Fin cfg0.N) (u : Fin 1) (v : Fin 1024) : ((cfg0.win 7).blk t).view.emb (ix2 u v) = ix2 u v := by
  obtain ⟨e0, e1⟩ := idx_7 t
  funext a; apply Fin.ext
  match a with
  | ⟨0, _⟩ => show win0_7.index t (0 : Fin 2) * 1 + 1 * u.val = u.val; omega
  | ⟨1, _⟩ => show win0_7.index t (1 : Fin 2) * 1024 + 1 * v.val = v.val; omega
theorem emb_8 (t : Fin cfg0.N) (u : Fin 1) (v : Fin 1024) : ((cfg0.win 8).blk t).view.emb (ix2 u v) = ix2 u v := by
  obtain ⟨e0, e1⟩ := idx_8 t
  funext a; apply Fin.ext
  match a with
  | ⟨0, _⟩ => show win0_8.index t (0 : Fin 2) * 1 + 1 * u.val = u.val; omega
  | ⟨1, _⟩ => show win0_8.index t (1 : Fin 2) * 1024 + 1 * v.val = v.val; omega
theorem emb_9 (t : Fin cfg0.N) (u : Fin 1024) (v : Fin 1024) : ((cfg0.win 9).blk t).view.emb (ix2 u v) = ix2 u v := by
  obtain ⟨e0, e1⟩ := idx_9 t
  funext a; apply Fin.ext
  match a with
  | ⟨0, _⟩ => show win0_9.index t (0 : Fin 2) * 1024 + 1 * u.val = u.val; omega
  | ⟨1, _⟩ => show win0_9.index t (1 : Fin 2) * 1024 + 1 * v.val = v.val; omega
theorem emb_10 (t : Fin cfg0.N) (u : Fin 1) (v : Fin 1024) : ((cfg0.win 10).blk t).view.emb (ix2 u v) = ix2 u v := by
  obtain ⟨e0, e1⟩ := idx_10 t
  funext a; apply Fin.ext
  match a with
  | ⟨0, _⟩ => show win0_10.index t (0 : Fin 2) * 1 + 1 * u.val = u.val; omega
  | ⟨1, _⟩ => show win0_10.index t (1 : Fin 2) * 1024 + 1 * v.val = v.val; omega
theorem emb_11 (t : Fin cfg0.N) (u : Fin 1) (v : Fin 1024) : ((cfg0.win 11).blk t).view.emb (ix2 u v) = ix2 u v := by
  obtain ⟨e0, e1⟩ := idx_11 t
  funext a; apply Fin.ext
  match a with
  | ⟨0, _⟩ => show win0_11.index t (0 : Fin 2) * 1 + 1 * u.val = u.val; omega
  | ⟨1, _⟩ => show win0_11.index t (1 : Fin 2) * 1024 + 1 * v.val = v.val; omega
theorem emb_12 (t : Fin cfg0.N) (u : Fin 1) (v : Fin 1024) : ((cfg0.win 12).blk t).view.emb (ix2 u v) = ix2 u v := by
  obtain ⟨e0, e1⟩ := idx_12 t
  funext a; apply Fin.ext
  match a with
  | ⟨0, _⟩ => show win0_12.index t (0 : Fin 2) * 1 + 1 * u.val = u.val; omega
  | ⟨1, _⟩ => show win0_12.index t (1 : Fin 2) * 1024 + 1 * v.val = v.val; omega
theorem emb_13 (t : Fin cfg0.N) (u : Fin 1024) (v : Fin 10) : ((cfg0.win 13).blk t).view.emb (ix2 u v) = ix2 u v := by
  obtain ⟨e0, e1⟩ := idx_13 t
  funext a; apply Fin.ext
  match a with
  | ⟨0, _⟩ => show win0_13.index t (0 : Fin 2) * 1024 + 1 * u.val = u.val; omega
  | ⟨1, _⟩ => show win0_13.index t (1 : Fin 2) * 10 + 1 * v.val = v.val; omega
theorem emb_14 (t : Fin cfg0.N) (u : Fin 1) (v : Fin 10) : ((cfg0.win 14).blk t).view.emb (ix2 u v) = ix2 u v := by
  obtain ⟨e0, e1⟩ := idx_14 t
  funext a; apply Fin.ext
  match a with
  | ⟨0, _⟩ => show win0_14.index t (0 : Fin 2) * 1 + 1 * u.val = u.val; omega
  | ⟨1, _⟩ => show win0_14.index t (1 : Fin 2) * 10 + 1 * v.val = v.val; omega

/-! ## Each input block's entries, in the argument arrays -/

theorem blk0_at (c : Dev nD) (t : Fin cfg0.N) (p : Fin 1024) (k : Fin 784) :
    iblk m c 0 t (ix2 p k) = rowOf (m ((c : Thread nD τ).loc main_arg0)) (rowAt t p) k := by
  show V m c main_arg0 (((cfg0.win 0).blk t).view.emb (ix2 p k)) = _
  rw [emb_0 t p k, V_main_arg0]
  rfl
theorem blk1_at (c : Dev nD) (t : Fin cfg0.N) (k : Fin 784) (j : Fin 1024) : iblk m c 1 t (ix2 k j) = Ideal.sign ((m ((c : Thread nD τ).loc main_arg1)) (ix2 j k)) := by
  show V m c main_v2 (((cfg0.win 1).blk t).view.emb (ix2 k j)) = _
  rw [emb_1 t k j]
  exact V_v2_at m c k j
theorem blk2_at (c : Dev nD) (t : Fin cfg0.N) (j : Fin 1024) : iblk m c 2 t (ix2 (0 : Fin 1) j) = (m ((c : Thread nD τ).loc main_arg2)) (ix1 j) := by
  show V m c main_v29 (((cfg0.win 2).blk t).view.emb (ix2 (0 : Fin 1) j)) = _
  rw [emb_2 t 0 j]
  exact V_v29_at m c j
theorem blk3_at (c : Dev nD) (t : Fin cfg0.N) (j : Fin 1024) : iblk m c 3 t (ix2 (0 : Fin 1) j) = scale (fun j => (m ((c : Thread nD τ).loc main_arg9)) (ix1 j)) (fun j => (m ((c : Thread nD τ).loc main_arg12)) (ix1 j)) j := by
  show V m c main_v30 (((cfg0.win 3).blk t).view.emb (ix2 (0 : Fin 1) j)) = _
  rw [emb_3 t 0 j]
  exact V_v30_at m c j
theorem blk4_at (c : Dev nD) (t : Fin cfg0.N) (j : Fin 1024) : iblk m c 4 t (ix2 (0 : Fin 1) j) = shift (fun j => (m ((c : Thread nD τ).loc main_arg10)) (ix1 j)) (fun j => (m ((c : Thread nD τ).loc main_arg11)) (ix1 j)) (scale (fun j => (m ((c : Thread nD τ).loc main_arg9)) (ix1 j)) (fun j => (m ((c : Thread nD τ).loc main_arg12)) (ix1 j))) j := by
  show V m c main_v31 (((cfg0.win 4).blk t).view.emb (ix2 (0 : Fin 1) j)) = _
  rw [emb_4 t 0 j]
  exact V_v31_at m c j
theorem blk5_at (c : Dev nD) (t : Fin cfg0.N) (k j : Fin 1024) : iblk m c 5 t (ix2 k j) = Ideal.sign ((m ((c : Thread nD τ).loc main_arg3)) (ix2 j k)) := by
  show V m c main_v5 (((cfg0.win 5).blk t).view.emb (ix2 k j)) = _
  rw [emb_5 t k j]
  exact V_v5_at m c k j
theorem blk6_at (c : Dev nD) (t : Fin cfg0.N) (j : Fin 1024) : iblk m c 6 t (ix2 (0 : Fin 1) j) = (m ((c : Thread nD τ).loc main_arg4)) (ix1 j) := by
  show V m c main_v32 (((cfg0.win 6).blk t).view.emb (ix2 (0 : Fin 1) j)) = _
  rw [emb_6 t 0 j]
  exact V_v32_at m c j
theorem blk7_at (c : Dev nD) (t : Fin cfg0.N) (j : Fin 1024) : iblk m c 7 t (ix2 (0 : Fin 1) j) = scale (fun j => (m ((c : Thread nD τ).loc main_arg13)) (ix1 j)) (fun j => (m ((c : Thread nD τ).loc main_arg16)) (ix1 j)) j := by
  show V m c main_v33 (((cfg0.win 7).blk t).view.emb (ix2 (0 : Fin 1) j)) = _
  rw [emb_7 t 0 j]
  exact V_v33_at m c j
theorem blk8_at (c : Dev nD) (t : Fin cfg0.N) (j : Fin 1024) : iblk m c 8 t (ix2 (0 : Fin 1) j) = shift (fun j => (m ((c : Thread nD τ).loc main_arg14)) (ix1 j)) (fun j => (m ((c : Thread nD τ).loc main_arg15)) (ix1 j)) (scale (fun j => (m ((c : Thread nD τ).loc main_arg13)) (ix1 j)) (fun j => (m ((c : Thread nD τ).loc main_arg16)) (ix1 j))) j := by
  show V m c main_v34 (((cfg0.win 8).blk t).view.emb (ix2 (0 : Fin 1) j)) = _
  rw [emb_8 t 0 j]
  exact V_v34_at m c j
theorem blk9_at (c : Dev nD) (t : Fin cfg0.N) (k j : Fin 1024) : iblk m c 9 t (ix2 k j) = Ideal.sign ((m ((c : Thread nD τ).loc main_arg5)) (ix2 j k)) := by
  show V m c main_v8 (((cfg0.win 9).blk t).view.emb (ix2 k j)) = _
  rw [emb_9 t k j]
  exact V_v8_at m c k j
theorem blk10_at (c : Dev nD) (t : Fin cfg0.N) (j : Fin 1024) : iblk m c 10 t (ix2 (0 : Fin 1) j) = (m ((c : Thread nD τ).loc main_arg6)) (ix1 j) := by
  show V m c main_v35 (((cfg0.win 10).blk t).view.emb (ix2 (0 : Fin 1) j)) = _
  rw [emb_10 t 0 j]
  exact V_v35_at m c j
theorem blk11_at (c : Dev nD) (t : Fin cfg0.N) (j : Fin 1024) : iblk m c 11 t (ix2 (0 : Fin 1) j) = scale (fun j => (m ((c : Thread nD τ).loc main_arg17)) (ix1 j)) (fun j => (m ((c : Thread nD τ).loc main_arg20)) (ix1 j)) j := by
  show V m c main_v36 (((cfg0.win 11).blk t).view.emb (ix2 (0 : Fin 1) j)) = _
  rw [emb_11 t 0 j]
  exact V_v36_at m c j
theorem blk12_at (c : Dev nD) (t : Fin cfg0.N) (j : Fin 1024) : iblk m c 12 t (ix2 (0 : Fin 1) j) = shift (fun j => (m ((c : Thread nD τ).loc main_arg18)) (ix1 j)) (fun j => (m ((c : Thread nD τ).loc main_arg19)) (ix1 j)) (scale (fun j => (m ((c : Thread nD τ).loc main_arg17)) (ix1 j)) (fun j => (m ((c : Thread nD τ).loc main_arg20)) (ix1 j))) j := by
  show V m c main_v37 (((cfg0.win 12).blk t).view.emb (ix2 (0 : Fin 1) j)) = _
  rw [emb_12 t 0 j]
  exact V_v37_at m c j
theorem blk13_at (c : Dev nD) (t : Fin cfg0.N) (k : Fin 1024) (j : Fin 10) : iblk m c 13 t (ix2 k j) = (m ((c : Thread nD τ).loc main_arg7)) (ix2 j k) := by
  show V m c main_v10 (((cfg0.win 13).blk t).view.emb (ix2 k j)) = _
  rw [emb_13 t k j]
  exact V_v10_at m c k j
theorem blk14_at (c : Dev nD) (t : Fin cfg0.N) (j : Fin 10) : iblk m c 14 t (ix2 (0 : Fin 1) j) = (m ((c : Thread nD τ).loc main_arg8)) (ix1 j) := by
  show V m c main_v38 (((cfg0.win 14).blk t).view.emb (ix2 (0 : Fin 1) j)) = _
  rw [emb_14 t 0 j]
  exact V_v38_at m c j

/-! ## What a grid point writes back, the cover, and the array after the run -/

/-- Grid point t writes back block t of the folded network of the argument arrays. -/
theorem flushed_eq (c : Dev nD) (t : Fin cfg0.N) :
    (dats m 0 c).flushed 15 t = ((cfg0.win 15).blk t).view.read (Elt Ideal)
      (netFolded (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) := by
  show (cfg0.win 15).cut (grid0.coords t) ((dats m 0 c).after 15 t) = _
  rw [after0_15]
  funext y
  obtain ⟨p, q, rfl⟩ : ∃ (p : Fin 1024) (q : Fin 10), y = ix2 p q := ⟨y 0, y 1, eq_ix2 y⟩
  show out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q)
    = netFolded (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (((cfg0.win 15).blk t).view.emb (ix2 p q))
  rw [emb_15 t p q]
  refine (out_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  rw [blockRow_eq]
  show _ = rowFolded (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) (rowOf (m ((c : Thread nD τ).loc main_arg0)) (rowAt t p)) q
  rw [rowFolded_eq]
  have h0 : (fun k => iblk m c 0 t (ix2 p k)) = rowOf (m ((c : Thread nD τ).loc main_arg0)) (rowAt t p) := funext fun k => blk0_at m c t p k
  have h1 : (fun q k => iblk m c 1 t (ix2 k q)) = fun q k => Ideal.sign ((m ((c : Thread nD τ).loc main_arg1)) (ix2 q k)) := funext fun a => funext fun b => blk1_at m c t b a
  have h2 : (fun j => iblk m c 2 t (ix2 (0 : Fin 1) j)) = fun j => (m ((c : Thread nD τ).loc main_arg2)) (ix1 j) := funext fun j => blk2_at m c t j
  have h3 : (fun j => iblk m c 3 t (ix2 (0 : Fin 1) j)) = scale (fun j => (m ((c : Thread nD τ).loc main_arg9)) (ix1 j)) (fun j => (m ((c : Thread nD τ).loc main_arg12)) (ix1 j)) := funext fun j => blk3_at m c t j
  have h4 : (fun j => iblk m c 4 t (ix2 (0 : Fin 1) j)) = shift (fun j => (m ((c : Thread nD τ).loc main_arg10)) (ix1 j)) (fun j => (m ((c : Thread nD τ).loc main_arg11)) (ix1 j)) (scale (fun j => (m ((c : Thread nD τ).loc main_arg9)) (ix1 j)) (fun j => (m ((c : Thread nD τ).loc main_arg12)) (ix1 j))) := funext fun j => blk4_at m c t j
  have h5 : (fun j q => iblk m c 5 t (ix2 q j)) = fun j q => Ideal.sign ((m ((c : Thread nD τ).loc main_arg3)) (ix2 j q)) := funext fun a => funext fun b => blk5_at m c t b a
  have h6 : (fun j => iblk m c 6 t (ix2 (0 : Fin 1) j)) = fun j => (m ((c : Thread nD τ).loc main_arg4)) (ix1 j) := funext fun j => blk6_at m c t j
  have h7 : (fun j => iblk m c 7 t (ix2 (0 : Fin 1) j)) = scale (fun j => (m ((c : Thread nD τ).loc main_arg13)) (ix1 j)) (fun j => (m ((c : Thread nD τ).loc main_arg16)) (ix1 j)) := funext fun j => blk7_at m c t j
  have h8 : (fun j => iblk m c 8 t (ix2 (0 : Fin 1) j)) = shift (fun j => (m ((c : Thread nD τ).loc main_arg14)) (ix1 j)) (fun j => (m ((c : Thread nD τ).loc main_arg15)) (ix1 j)) (scale (fun j => (m ((c : Thread nD τ).loc main_arg13)) (ix1 j)) (fun j => (m ((c : Thread nD τ).loc main_arg16)) (ix1 j))) := funext fun j => blk8_at m c t j
  have h9 : (fun j q => iblk m c 9 t (ix2 q j)) = fun j q => Ideal.sign ((m ((c : Thread nD τ).loc main_arg5)) (ix2 j q)) := funext fun a => funext fun b => blk9_at m c t b a
  have h10 : (fun j => iblk m c 10 t (ix2 (0 : Fin 1) j)) = fun j => (m ((c : Thread nD τ).loc main_arg6)) (ix1 j) := funext fun j => blk10_at m c t j
  have h11 : (fun j => iblk m c 11 t (ix2 (0 : Fin 1) j)) = scale (fun j => (m ((c : Thread nD τ).loc main_arg17)) (ix1 j)) (fun j => (m ((c : Thread nD τ).loc main_arg20)) (ix1 j)) := funext fun j => blk11_at m c t j
  have h12 : (fun j => iblk m c 12 t (ix2 (0 : Fin 1) j)) = shift (fun j => (m ((c : Thread nD τ).loc main_arg18)) (ix1 j)) (fun j => (m ((c : Thread nD τ).loc main_arg19)) (ix1 j)) (scale (fun j => (m ((c : Thread nD τ).loc main_arg17)) (ix1 j)) (fun j => (m ((c : Thread nD τ).loc main_arg20)) (ix1 j))) := funext fun j => blk12_at m c t j
  have h13 : (fun j k => iblk m c 13 t (ix2 k j)) = fun j k => (m ((c : Thread nD τ).loc main_arg7)) (ix2 j k) := funext fun a => funext fun b => blk13_at m c t b a
  have h14 : (fun j => iblk m c 14 t (ix2 (0 : Fin 1) j)) = fun j => (m ((c : Thread nD τ).loc main_arg8)) (ix1 j) := funext fun j => blk14_at m c t j
  rw [h0, h1, h2, h3, h4, h5, h6, h7, h8, h9, h10, h11, h12, h13, h14]
  rfl

/-- An index of the result is in grid point t's block iff each coordinate is in the block's range. -/
theorem mem_blk (t : Fin cfg0.N) (i : S16384x10.Idx) :
    i ∈ ((cfg0.win 15).blk t).view.set ↔ ∀ a : Fin 2, win0_15.index t a * S1024x10.size a ≤ (i a).val ∧ (i a).val < win0_15.index t a * S1024x10.size a + S1024x10.size a := by
  show i ∈ ((View.whole main_v39).slice (win0_15.rect t)).set ↔ _
  rw [View.set_slice_whole, Rect.mem_set_unit]
  exact Iff.rfl

/-- The 16 blocks cover the result: row r is in the block of grid point r / 1024. -/
theorem cover (i : S16384x10.Idx) : ∃ t : Fin cfg0.N, (cfg0.win 15).flush t = true ∧ i ∈ ((cfg0.win 15).blk t).view.set := by
  have hi0 : (i 0).val < 16384 := (i 0).isLt
  have hi1 : (i 1).val < 10 := (i 1).isLt
  obtain ⟨t, ht⟩ := idx_onto ⟨(i 0).val / 1024, by omega⟩
  have q0 : win0_15.index t (0 : Fin 2) = (i 0).val / 1024 := congrFun ht 0
  have q1 : win0_15.index t (1 : Fin 2) = 0 := congrFun ht 1
  refine ⟨t, flush0_15 t, ?_⟩
  rw [mem_blk]
  intro a
  match a with
  | ⟨0, _⟩ => show win0_15.index t (0 : Fin 2) * 1024 ≤ (i 0).val ∧ (i 0).val < win0_15.index t (0 : Fin 2) * 1024 + 1024; omega
  | ⟨1, _⟩ => show win0_15.index t (1 : Fin 2) * 10 ≤ (i 1).val ∧ (i 1).val < win0_15.index t (1 : Fin 2) * 10 + 10; omega

/-- The result array after the run is the folded network of the argument arrays. -/
theorem final (c : Dev nD) : (dats m 0 c).arrAt 15 cfg0.N = netFolded (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) :=
  (dats m 0 c).arrAt_eq_of_cover 15 _ (fun t _ => flushed_eq m c t) cover

/-- Every weakly fair execution of the idealized kernel program ends with the result at the folded network of the
    arguments, and the arguments unchanged. -/
theorem run : θ_run defs (onTc (τ := τ) (main (F := Ideal))) ⟨m, fun _ => 0, ρ⟩ fun r => ∀ c : Dev nD,
      r.2.mem ((c : Thread nD τ).loc main_v39) = netFolded (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨(h c).1.trans (final m c), (h c).2⟩) (Cert.KernelIdeal.Value.run_blocks m ρ)

end Cert.KernelIdeal.NetValue

end
-- ==== Proof.NetBridge.lean ====
/-
  Under the certificate's precondition — every input finite, the three running variances non-negative — the unfolded
  and the folded arrangement of the network are one function of the argument arrays.
-/
import proofs.«179161_j77189152243989_1_alg».proof.Proof.BnnAlgebra
import proofs.«179161_j77189152243989_1_alg».proof.Proof.PreDecode

noncomputable section

namespace Cert.NetBridge

open Idealize.ShloMosaic Cert.Bnn

/-- The precondition, evaluated to all ones, makes the two arrangements agree on the whole batch. -/
theorem plain_eq_folded [Cert.Pre_finite_inputs.Facts] (a0 : A2 16384 784) (a1 : A2 1024 784) (a2 : A1 1024) (a3 : A2 1024 1024) (a4 : A1 1024)
    (a5 : A2 1024 1024) (a6 : A1 1024) (a7 : A2 10 1024) (a8 : A1 10) (a9 a10 a11 a12 a13 a14 a15 a16 a17 a18 a19 a20 : A1 1024)
    (h : Cert.Pre_finite_inputs.fn (F := Ideal) a0 a1 a2 a3 a4 a5 a6 a7 a8 a9 a10 a11 a12 a13 a14 a15 a16 a17 a18 a19 a20 = fun _ => 1#1) :
    netPlain a0 a1 a2 a3 a4 a5 a6 a7 a8 a9 a10 a11 a12 a13 a14 a15 a16 a17 a18 a19 a20 = netFolded a0 a1 a2 a3 a4 a5 a6 a7 a8 a9 a10 a11 a12 a13 a14 a15 a16 a17 a18 a19 a20 := by
  have D := Cert.PreDecode.dom_of_pre a0 a1 a2 a3 a4 a5 a6 a7 a8 a9 a10 a11 a12 a13 a14 a15 a16 a17 a18 a19 a20 h
  exact (net_eq a0 a1 a2 a3 a4 a5 a6 a7 a8 a9 a10 a11 a12 a13 a14 a15 a16 a17 a18 a19 a20 D.fin0 D.fin1 D.fin2 D.fin3 D.fin4 D.fin5 D.fin6 D.fin9 D.fin10 D.fin11 D.fin12 D.fin13 D.fin14
    D.fin15 D.fin16 D.fin17 D.fin18 D.fin19 D.fin20 D.nn12 D.nn16 D.nn20).symm

end Cert.NetBridge

end
-- ==== Proof.lean ====
/-
  The certificate: a fused binarized three-hidden-layer perceptron with inference batch normalisation, hard-tanh and
  log-softmax, tiled over the batch in 16 blocks of 1024 rows, against the plain layer-by-layer reference.

  At the extended reals both programs compute, for each input row, the same network (Proof/BnnSpec.lean). They differ in
  two places. The kernel folds batch normalisation into a per-feature scale s = γ·rsqrt(σ² + ε) and shift t = β − μ·s and
  applies z·s + t, where the reference computes (z − μ)·rsqrt(σ² + ε)·γ + β; and the kernel binarizes by sign x where the
  reference uses the straight-through form x + (sign x − x). Both pairs agree on real numbers when rsqrt(σ² + ε) is a real
  number, which the precondition gives: every input is finite and the three running variances are non-negative (for
  σ² + ε = 0 the reciprocal root is +∞ and the two batch-norm forms give different values, so the hypothesis is used).
  The hidden activations are clipped to [−1, 1], hence real, whatever came before, so the argument goes layer by layer
  (Proof/BnnAlgebra.lean). The kernel's side: each grid point's stored block, row by row, is the folded network of the
  rows it loaded (Proof/KerOps.lean, KerPay.lean), the operands the host prepared are the transposed sign weights and the
  folded scale and shift rows (Proof/KerHost.lean), and the 16 blocks tile the result (Proof/KerFinal.lean). The
  reference's side: its run's result stage, read operation by operation, is the unfolded network (Proof/RefIsPlain.lean).
  The word-level kernel and its idealization differ only by the two sign-bit idioms, restated as the rule's statement.
-/
import proofs.«179161_j77189152243989_1_alg».proof.Defs
import proofs.«179161_j77189152243989_1_alg».proof.Proof.Gen.Kernel
import proofs.«179161_j77189152243989_1_alg».proof.Proof.Gen.Kernel.Skeleton
import proofs.«179161_j77189152243989_1_alg».proof.Proof.Gen.Kernel.Launch
import proofs.«179161_j77189152243989_1_alg».proof.Proof.Gen.Kernel.Points
import proofs.«179161_j77189152243989_1_alg».proof.Proof.Gen.Kernel.Frame
import proofs.«179161_j77189152243989_1_alg».proof.Proof.Gen.KernelIdeal
import proofs.«179161_j77189152243989_1_alg».proof.Proof.Gen.KernelIdeal.Skeleton
import proofs.«179161_j77189152243989_1_alg».proof.Proof.Gen.KernelIdeal.Launch
import proofs.«179161_j77189152243989_1_alg».proof.Proof.Gen.KernelIdeal.Points
import proofs.«179161_j77189152243989_1_alg».proof.Proof.Gen.KernelIdeal.Frame
import proofs.«179161_j77189152243989_1_alg».proof.Proof.Gen.ReferenceIdeal
import proofs.«179161_j77189152243989_1_alg».proof.Proof.Gen.Pre_finite_inputs
import proofs.«179161_j77189152243989_1_alg».proof.Proof.Gen.KernelIdeal.Value
import proofs.«179161_j77189152243989_1_alg».proof.Proof.RefRunP
import proofs.«179161_j77189152243989_1_alg».proof.Proof.RefReadP
import proofs.«179161_j77189152243989_1_alg».proof.Proof.RefIsPlain
import proofs.«179161_j77189152243989_1_alg».proof.Proof.BnnAlgebra
import proofs.«179161_j77189152243989_1_alg».proof.Proof.PreDecode
import proofs.«179161_j77189152243989_1_alg».proof.Proof.KerFinal
import proofs.«179161_j77189152243989_1_alg».proof.Proof.NetBridge
import Idealize.ShloMosaic.Adequacy
import Idealize.ShloMosaic.Init

noncomputable section

namespace Cert.Proof

open Idealize.ShloMosaic Idealize.SL.Sem

section
variable [hPre : Cert.Pre_finite_inputs.Facts]

/-- The word-level kernel terminates, faults nowhere and leaves its arguments as they were. -/
theorem frame_k [Cert.Kernel.Facts] : Cert.frame_Kernel := fun m ρ _ => Cert.Kernel.Gen.frame m ρ

/-- So does its idealization. -/
theorem frame_ki [Cert.KernelIdeal.Facts] : Cert.frame_KernelIdeal := fun m ρ _ => Cert.KernelIdeal.Gen.frame m ρ

/-- So does the reference: its run, with the result dropped. -/
theorem frame_ri [Cert.ReferenceIdeal.Facts] : Cert.frame_ReferenceIdeal := fun m ρ _ =>
  (θ_run Cert.ReferenceIdeal.defs _ _).mono (fun _ h c => (h c).2) (Cert.ReferenceIdeal.ValueP.run (F := Ideal) m ρ)

/-- The two places where the kernel builds ±1 from a sign bit: at the extended reals −1 below zero and 1 elsewhere. -/
theorem preserves : Cert.preserves_Kernel_KernelIdeal :=
  ⟨IdealRules.sign_bit.statement Cert.KernelIdeal.S1024x1024 .f32, IdealRules.sign_bit.statement Cert.KernelIdeal.S1024x1024 .f32⟩

/-- Both idealized programs end with the same result: the kernel's is the folded network of the arguments, the
    reference's the unfolded one, and on finite arguments with non-negative variances the two are one function. -/
theorem algebraic [Cert.KernelIdeal.Facts] [Cert.ReferenceIdeal.Facts] : Cert.algebraic_KernelIdeal_ReferenceIdeal := by
  intro m ρ m' ρ' hpre hagree
  refine ⟨_, Cert.KernelIdeal.NetValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10, e11, e12, e13, e14, e15, e16, e17, e18, e19, e20⟩ := hagree c
  rw [Cert.ReferenceIdeal.ReadP.val_main_v83_eq, Cert.RefIsPlain.ref_eq]
  rw [e0, e1, e2, e3, e4, e5, e6, e7, e8, e9, e10, e11, e12, e13, e14, e15, e16, e17, e18, e19, e20]
  exact Cert.NetBridge.plain_eq_folded (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (hpre c)

end

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
